-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x48 : Shape := ⟨3, ![1024, 128, 48]⟩
abbrev S1024x128x1024 : Shape := ⟨3, ![1024, 128, 1024]⟩
abbrev S1024x2096 : Shape := ⟨2, ![1024, 2096]⟩
abbrev S1024 : Shape := ⟨1, ![1024]⟩
abbrev S_ : Shape := ⟨0, ![]⟩

class Facts : Prop where
  bcast_S_S1024x128x48 : S_.BroadcastsInDim S1024x128x48 (![] : Fin 0 → Fin S1024x128x48.rank)
  reducesTo_S1024x128x48_S_d0_1_2 : S1024x128x48.ReducesTo [0, 1, 2] S_
  h_S_ : 0 < S_.numel
  bcast_S_S1024x128x1024 : S_.BroadcastsInDim S1024x128x1024 (![] : Fin 0 → Fin S1024x128x1024.rank)
  reducesTo_S1024x128x1024_S_d0_1_2 : S1024x128x1024.ReducesTo [0, 1, 2] S_
  bcast_S_S1024x2096 : S_.BroadcastsInDim S1024x2096 (![] : Fin 0 → Fin S1024x2096.rank)
  reducesTo_S1024x2096_S_d0_1 : S1024x2096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x2096 1) : IVec S_ 1 :=
  let main_c_5 : IVec S_ 1 := constantI S_ 1 1#1
  let main_v17 : IVec S_ 1 := (fun x v => Host.reduce IntOp.andi x v reducesTo_S1024x2096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S1024x128x48 .f32) (main_arg1 : FVec F S1024x128x1024 .f32) (main_arg2 : FVec F S1024x128x1024 .f32) (main_arg3 : FVec F S1024x2096 .f32) (main_arg4 : FVec F S1024 .f32) : IVec S_ 1 :=
  let main_v0 : FVec F S1024x128x48 .f32 := Host.absf main_arg0
  let main_cst : FVec F S_ .f32 := constant S_ .f32 0x7F800000#32
  let main_v1 : FVec F S1024x128x48 .f32 := broadcastInDim S1024x128x48 ![] bcast_S_S1024x128x48 main_cst
  let main_v2 : IVec S1024x128x48 1 := cmpf .olt main_v0 main_v1
  let main_c : IVec S_ 1 := constantI S_ 1 1#1
  let main_v3 : IVec S_ 1 := (fun x v => Host.reduce IntOp.andi x v reducesTo_S1024x128x48_S_d0_1_2 h_S_) main_v2 main_c
  let main_v4 : FVec F S1024x128x1024 .f32 := Host.absf main_arg1
  let main_cst_0 : FVec F S_ .f32 := constant S_ .f32 0x7F800000#32
  let main_v5 : FVec F S1024x128x1024 .f32 := broadcastInDim S1024x128x1024 ![] bcast_S_S1024x128x1024 main_cst_0
  let main_v6 : IVec S1024x128x1024 1 := cmpf .olt main_v4 main_v5
  let main_c_1 : IVec S_ 1 := constantI S_ 1 1#1
  let main_v7 : IVec S_ 1 := (fun x v => Host.reduce IntOp.andi x v reducesTo_S1024x128x1024_S_d0_1_2 h_S_) main_v6 main_c_1
  let main_v8 : IVec S_ 1 := andi main_v3 main_v7
  let main_v9 : FVec F S1024x128x1024 .f32 := Host.absf main_arg2
  let main_cst_2 : FVec F S_ .f32 := constant S_ .f32 0x7F800000#32
  let main_v10 : FVec F S1024x128x1024 .f32 := broadcastInDim S1024x128x1024 ![] bcast_S_S1024x128x1024 main_cst_2
  let main_v11 : IVec S1024x128x1024 1 := cmpf .olt main_v9 main_v10
  let main_c_3 : IVec S_ 1 := constantI S_ 1 1#1
  let main_v12 : IVec S_ 1 := (fun x v => Host.reduce IntOp.andi x v reducesTo_S1024x128x1024_S_d0_1_2 h_S_) main_v11 main_c_3
  let main_v13 : IVec S_ 1 := andi main_v8 main_v12
  let main_v14 : FVec F S1024x2096 .f32 := Host.absf main_arg3
  let main_cst_4 : FVec F S_ .f32 := constant S_ .f32 0x7F800000#32
  let main_v15 : FVec F S1024x2096 .f32 := broadcastInDim S1024x2096 ![] bcast_S_S1024x2096 main_cst_4
  let main_v16 : IVec S1024x2096 1 := cmpf .olt main_v14 main_v15
  fn_part1 (F := F) main_arg4 main_v13 main_v16
-- ==== Kernel.lean ====
abbrev S1024x128x48 : Shape := ⟨3, ![1024, 128, 48]⟩
abbrev S1024x128x1024 : Shape := ⟨3, ![1024, 128, 1024]⟩
abbrev S1024x2096 : Shape := ⟨2, ![1024, 2096]⟩
abbrev S1024 : Shape := ⟨1, ![1024]⟩
abbrev S1024x48 : Shape := ⟨2, ![1024, 48]⟩
abbrev S1024x1024 : Shape := ⟨2, ![1024, 1024]⟩
abbrev S16x128x48 : Shape := ⟨3, ![16, 128, 48]⟩
abbrev S16x128x1024 : Shape := ⟨3, ![16, 128, 1024]⟩
abbrev S16x48 : Shape := ⟨2, ![16, 48]⟩
abbrev S16x1024 : Shape := ⟨2, ![16, 1024]⟩
abbrev S_ : Shape := ⟨0, ![]⟩
abbrev S2096x1024 : Shape := ⟨2, ![2096, 1024]⟩
abbrev S1x1024 : Shape := ⟨2, ![1, 1024]⟩
abbrev S128x2096 : Shape := ⟨2, ![128, 2096]⟩
abbrev S128x1024 : Shape := ⟨2, ![128, 1024]⟩

abbrev nBuf : Space → Nat
  | .hbm => 53
  | .vmem => 18
  | .smem => 0
  | _ => 0

abbrev bufTy : (tb : Table) → Fin (tcTables nBuf tb) → BufTy
  | .hbm, ⟨0, _⟩ => ⟨S1024x128x48, .f32⟩
  | .hbm, ⟨1, _⟩ => ⟨S1024x128x1024, .f32⟩
  | .hbm, ⟨2, _⟩ => ⟨S1024x128x1024, .f32⟩
  | .hbm, ⟨3, _⟩ => ⟨S1024x2096, .f32⟩
  | .hbm, ⟨4, _⟩ => ⟨S1024, .f32⟩
  | .hbm, ⟨5, _⟩ => ⟨S1024x48, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .i1⟩
  | .hbm, ⟨13, _⟩ => ⟨S1024, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1024x48, .f32⟩
  | .hbm, ⟨20, _⟩ => ⟨S1024x48, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .i1⟩
  | .hbm, ⟨26, _⟩ => ⟨S1024, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .i1⟩
  | .hbm, ⟨39, _⟩ => ⟨S1024, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x2096, .f32⟩
  | .hbm, ⟨48, _⟩ => ⟨S1024x2096, .bf16⟩
  | .hbm, ⟨49, _⟩ => ⟨S2096x1024, .f32⟩
  | .hbm, ⟨50, _⟩ => ⟨S2096x1024, .bf16⟩
  | .hbm, ⟨51, _⟩ => ⟨S1x1024, .f32⟩
  | .hbm, ⟨52, _⟩ => ⟨S1024x1024, .f32⟩
  | .local _ .vmem, ⟨0, _⟩ => ⟨S16x128x48, .f32⟩
  | .local _ .vmem, ⟨1, _⟩ => ⟨S16x128x48, .f32⟩
  | .local _ .vmem, ⟨2, _⟩ => ⟨S16x128x1024, .f32⟩
  | .local _ .vmem, ⟨3, _⟩ => ⟨S16x128x1024, .f32⟩
  | .local _ .vmem, ⟨4, _⟩ => ⟨S16x128x1024, .f32⟩
  | .local _ .vmem, ⟨5, _⟩ => ⟨S16x128x1024, .f32⟩
  | .local _ .vmem, ⟨6, _⟩ => ⟨S16x48, .f32⟩
  | .local _ .vmem, ⟨7, _⟩ => ⟨S16x48, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S128x2096, .bf16⟩
  | .local _ .vmem, ⟨13, _⟩ => ⟨S128x2096, .bf16⟩
  | .local _ .vmem, ⟨14, _⟩ => ⟨S2096x1024, .bf16⟩
  | .local _ .vmem, ⟨15, _⟩ => ⟨S1x1024, .f32⟩
  | .local _ .vmem, ⟨16, _⟩ => ⟨S128x1024, .f32⟩
  | .local _ .vmem, ⟨17, _⟩ => ⟨S128x1024, .f32⟩
  | _, _ => ⟨S1024x128x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S16x128x48_S16x128x48_0_0_0 : ∀ a, (![0, 0, 0] : Fin 3 → Nat) a + S16x128x48.size a ≤ S16x128x48.size a
  h_S16x128x48 : 0 < S16x128x48.numel
  reduces_S16x128x48_S16x48 : S16x128x48.Reduces [1] S16x48
  inb_S16x48_S16x48_0_0 : ∀ a, (![0, 0] : Fin 2 → Nat) a + S16x48.size a ≤ S16x48.size a
  h_S16x48 : 0 < S16x48.numel
  inb_S16x128x1024_S16x128x1024_0_0_0 : ∀ a, (![0, 0, 0] : Fin 3 → Nat) a + S16x128x1024.size a ≤ S16x128x1024.size a
  h_S16x128x1024 : 0 < S16x128x1024.numel
  reduces_S16x128x1024_S16x1024 : S16x128x1024.Reduces [1] S16x1024
  inb_S16x1024_S16x1024_0_0 : ∀ a, (![0, 0] : Fin 2 → Nat) a + S16x1024.size a ≤ S16x1024.size a
  h_S16x1024 : 0 < S16x1024.numel
  reducesTo_S1024x48_S1024_d1 : S1024x48.ReducesTo [1] S1024
  h_S_ : 0 < S_.numel
  bcast_S_S1024 : S_.BroadcastsInDim S1024 (![] : Fin 0 → Fin S1024.rank)
  natLt_1_32 : 1 < 32
  reducesTo_S1024_S_d0 : S1024.ReducesTo [0] S_
  bcast_S_S1024x48 : S_.BroadcastsInDim S1024x48 (![] : Fin 0 → Fin S1024x48.rank)
  reducesTo_S1024x1024_S1024_d1 : S1024x1024.ReducesTo [1] S1024
  bcast_S_S1024x1024 : S_.BroadcastsInDim S1024x1024 (![] : Fin 0 → Fin S1024x1024.rank)
  concatenates_S1024x48_S1024x1024_S1024x1024_S1024x2096_d1 : Shape.Concatenates [S1024x48, S1024x1024, S1024x1024] S1024x2096 1
  bitsLt_bf16_f32 : FTy.bits .bf16 < FTy.bits .f32
  transposes_S1024x2096_S2096x1024_1_0 : S1024x2096.Transposes [1, 0] S2096x1024
  shapeCasts_S1024_S1x1024 : S1024.ShapeCasts S1x1024
  inb_S128x2096_S128x2096_0_0 : ∀ a, (![0, 0] : Fin 2 → Nat) a + S128x2096.size a ≤ S128x2096.size a
  h_S128x2096 : 0 < S128x2096.numel
  shapeCasts_S128x2096_S128x2096 : S128x2096.ShapeCasts S128x2096
  inb_S2096x1024_S2096x1024_0_0 : ∀ a, (![0, 0] : Fin 2 → Nat) a + S2096x1024.size a ≤ S2096x1024.size a
  h_S2096x1024 : 0 < S2096x1024.numel
  shapeCasts_S2096x1024_S2096x1024 : S2096x1024.ShapeCasts S2096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  dot_S128x2096_S2096x1024_S128x1024_1_0_0_1_n_n_wf : DotDims.WF S128x2096 S2096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x48.size a ≤ S1024x128x48.size a
  hwx0_0 : ∀ i : grid0.Coords, EltTy.bits .f32 = 32 ∨ (Rect.block (s := S1024x128x48) S16x128x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x1024.size a ≤ S1024x128x1024.size a
  hwx0_1 : ∀ i : grid0.Coords, EltTy.bits .f32 = 32 ∨ (Rect.block (s := S1024x128x1024) S16x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x1024.size a ≤ S1024x128x1024.size a
  hwx0_2 : ∀ i : grid0.Coords, EltTy.bits .f32 = 32 ∨ (Rect.block (s := S1024x128x1024) S16x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x48.size a ≤ S1024x48.size a
  hwx0_3 : ∀ i : grid0.Coords, EltTy.bits .f32 = 32 ∨ (Rect.block (s := S1024x48) S16x48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S1024x1024.size a
  hwx0_4 : ∀ i : grid0.Coords, EltTy.bits .f32 = 32 ∨ (Rect.block (s := S1024x1024) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S1024x1024.size a
  hwx0_5 : ∀ i : grid0.Coords, EltTy.bits .f32 = 32 ∨ (Rect.block (s := S1024x1024) S16x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2096.size a ≤ S1024x2096.size a
  hwx1_0 : ∀ i : grid1.Coords, EltTy.bits .bf16 = 32 ∨ (Rect.block (s := S1024x2096) S128x2096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2096x1024.size a ≤ S2096x1024.size a
  hwx1_1 : ∀ i : grid1.Coords, EltTy.bits .bf16 = 32 ∨ (Rect.block (s := S2096x1024) S2096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S1024x1024.size a
  hwx1_3 : ∀ i : grid1.Coords, EltTy.bits .f32 = 32 ∨ (Rect.block (s := S1024x1024) S128x1024.size (cc1_transform_3 i) (hinb1_3 i)).WholeWords (EltTy.packing .f32)

variable [Facts₀]

def dot_S128x2096_S2096x1024_S128x1024_1_0_0_1_n_n : DotDims S128x2096 S2096x1024 S128x1024 where
  lhsContracting := [1]
  rhsContracting := [0]
  lhsNonContracting := [0]
  rhsNonContracting := [1]
  lhsBatch := []
  rhsBatch := []
  wf := dot_S128x2096_S2096x1024_S128x1024_1_0_0_1_n_n_wf

abbrev win0_0 : Pipeline.Window sig grid0 :=
  Pipeline.Window.ofSpec (Memref.whole main_arg0) S16x128x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S16x48.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S16x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S16x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S128x2096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x128x48 : Shape := ⟨3, ![1024, 128, 48]⟩
abbrev S1024x128x1024 : Shape := ⟨3, ![1024, 128, 1024]⟩
abbrev S1024x2096 : Shape := ⟨2, ![1024, 2096]⟩
abbrev S1024 : Shape := ⟨1, ![1024]⟩
abbrev S_ : Shape := ⟨0, ![]⟩
abbrev S1024x48 : Shape := ⟨2, ![1024, 48]⟩
abbrev S1024x1024 : Shape := ⟨2, ![1024, 1024]⟩
abbrev S2096x1024 : Shape := ⟨2, ![2096, 1024]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1024x128x48, .f32⟩
  | .hbm, ⟨1, _⟩ => ⟨S1024x128x1024, .f32⟩
  | .hbm, ⟨2, _⟩ => ⟨S1024x128x1024, .f32⟩
  | .hbm, ⟨3, _⟩ => ⟨S1024x2096, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .i1⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S_, .f32⟩
  | .hbm, ⟨15, _⟩ => ⟨S1024x48, .f32⟩
  | .hbm, ⟨16, _⟩ => ⟨S_, .f32⟩
  | .hbm, ⟨17, _⟩ => ⟨S_, .f32⟩
  | .hbm, ⟨18, _⟩ => ⟨S1024x48, .f32⟩
  | .hbm, ⟨19, _⟩ => ⟨S1024x48, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .i1⟩
  | .hbm, ⟨25, _⟩ => ⟨S1024, .i32⟩
  | .hbm, ⟨26, _⟩ => ⟨S_, .i32⟩
  | .hbm, ⟨27, _⟩ => ⟨S_, .i32⟩
  | .hbm, ⟨28, _⟩ => ⟨S_, .f32⟩
  | .hbm, ⟨29, _⟩ => ⟨S_, .f32⟩
  | .hbm, ⟨30, _⟩ => ⟨S1024x1024, .f32⟩
  | .hbm, ⟨31, _⟩ => ⟨S_, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .i1⟩
  | .hbm, ⟨40, _⟩ => ⟨S1024, .i32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S_, .f32⟩
  | .hbm, ⟨45, _⟩ => ⟨S1024x1024, .f32⟩
  | .hbm, ⟨46, _⟩ => ⟨S_, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x2096, .f32⟩
  | .hbm, ⟨51, _⟩ => ⟨S2096x1024, .f32⟩
  | .hbm, ⟨52, _⟩ => ⟨S1024x1024, .f32⟩
  | .hbm, ⟨53, _⟩ => ⟨S1x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | _, _ => ⟨S1024x128x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_cst_9 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_10 : Ref sig .tc := ⟨.hbm, 41, rfl⟩
abbrev main_v24 : Ref sig .tc := ⟨.hbm, 42, rfl⟩
abbrev main_v25 : Ref sig .tc := ⟨.hbm, 43, rfl⟩
abbrev main_cst_11 : Ref sig .tc := ⟨.hbm, 44, rfl⟩
abbrev main_v26 : Ref sig .tc := ⟨.hbm, 45, rfl⟩
abbrev main_cst_12 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_cst : Ref sig .tc := ⟨.hbm, 56, rfl⟩
abbrev main_call0_v0 : Ref sig .tc := ⟨.hbm, 57, rfl⟩
abbrev main_v36 : Ref sig .tc := ⟨.hbm, 58, rfl⟩

abbrev nD : Nat := 1
abbrev τ : Topo := Topo.v7x

variable {F : FTy → Type} [FloatOps F]

class Facts₀ : Prop where
  reducesTo_S1024x128x48_S1024_d1_2 : S1024x128x48.ReducesTo [1, 2] S1024
  h_S_ : 0 < S_.numel
  bcast_S_S1024 : S_.BroadcastsInDim S1024 (![] : Fin 0 → Fin S1024.rank)
  natLt_1_32 : 1 < 32
  reducesTo_S1024_S_d0 : S1024.ReducesTo [0] S_
  reducesTo_S1024x128x48_S1024x48_d1 : S1024x128x48.ReducesTo [1] S1024x48
  bcast_S_S1024x48 : S_.BroadcastsInDim S1024x48 (![] : Fin 0 → Fin S1024x48.rank)
  reducesTo_S1024x128x1024_S1024_d1_2 : S1024x128x1024.ReducesTo [1, 2] S1024
  reducesTo_S1024x128x1024_S1024x1024_d1 : S1024x128x1024.ReducesTo [1] S1024x1024
  bcast_S_S1024x1024 : S_.BroadcastsInDim S1024x1024 (![] : Fin 0 → Fin S1024x1024.rank)
  concatenates_S1024x48_S1024x1024_S1024x1024_S1024x2096_d1 : Shape.Concatenates [S1024x48, S1024x1024, S1024x1024] S1024x2096 1
  transposes_S1024x2096_S2096x1024_1_0 : S1024x2096.Transposes [1, 0] S2096x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S1024x2096_S2096x1024_S1024x1024_1_0_0_1_n_n_wf : DotDims.WF S1024x2096 S2096x1024 S1024x1024 [1] [0] [0] [1] [] []

variable [Facts₀]

def dot_S1024x2096_S2096x1024_S1024x1024_1_0_0_1_n_n : DotDims S1024x2096 S2096x1024 S1024x1024 where
  lhsContracting := [1]
  rhsContracting := [0]
  lhsNonContracting := [0]
  rhsNonContracting := [1]
  lhsBatch := []
  rhsBatch := []
  wf := dot_S1024x2096_S2096x1024_S1024x1024_1_0_0_1_n_n_wf

class Facts : Prop extends Facts₀ where

variable [Facts]
-- ==== Proof.FrameK.Region0.lean ====
/-
  The pooling stage: a grid of 64 points, point t holding batch rows 16t … 16t+15. At each point the body reads one
  block of each of the three sequence tensors ([16,128,48], [16,128,1024], [16,128,1024]), sums each over the sequence
  axis, and stores the three sums whole into the three output blocks ([16,48], [16,1024], [16,1024]). Stated at an
  arbitrary valuation `V` of the buffers at the stage's entry and at any float instance.
-/
import proofs.«161936_j50259707298335_1_alg».proof.Proof.Gen.Kernel.Launch
import proofs.«161936_j50259707298335_1_alg».proof.Proof.Gen.Kernel.Skeleton
import proofs.«161936_j50259707298335_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array in the entry valuation. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rJ : Rect S16x128x48 := Rect.unit (s := S16x128x48) ![0, 0, 0] S16x128x48.size inb_S16x128x48_S16x128x48_0_0_0
abbrev rW : Rect S16x128x1024 := Rect.unit (s := S16x128x1024) ![0, 0, 0] S16x128x1024.size inb_S16x128x1024_S16x128x1024_0_0_0
abbrev rSJ : Rect S16x48 := Rect.unit (s := S16x48) ![0, 0] S16x48.size inb_S16x48_S16x48_0_0
abbrev rSW : Rect S16x1024 := Rect.unit (s := S16x1024) ![0, 0] S16x1024.size inb_S16x1024_S16x1024_0_0

/-- What the body leaves in each output block: the sequence-axis sum of the matching input block, stored whole. -/
def out0_3 (x0 : Vec F S16x128x48 .f32) : Vec F S16x48 .f32 :=
  View.canon [⟨rSJ, k0_pay1 (View.ld x0 rJ)⟩]
def out0_4 (x1 : Vec F S16x128x1024 .f32) : Vec F S16x1024 .f32 :=
  View.canon [⟨rSW, k0_pay2 (View.ld x1 rW)⟩]
def out0_5 (x2 : Vec F S16x128x1024 .f32) : Vec F S16x1024 .f32 :=
  View.canon [⟨rSW, k0_pay3 (View.ld x2 rW)⟩]

/-- One whole-block store covers its block. -/
theorem cover0_J (p0 : Vec F S16x48 .f32) (y : S16x48.Idx) :
    ∃ pc ∈ ([⟨rSJ, p0⟩] : List (View.Piece (Elt F) S16x48 .f32)), y ∈ pc.1.set :=
  View.cover_of_tiled [⟨rSJ, p0⟩] S16x48.size (by rfl) y
theorem cover0_W (p0 : Vec F S16x1024 .f32) (y : S16x1024.Idx) :
    ∃ pc ∈ ([⟨rSW, p0⟩] : List (View.Piece (Elt F) S16x1024 .f32)), y ∈ pc.1.set :=
  View.cover_of_tiled [⟨rSW, p0⟩] S16x1024.size (by rfl) y

set_option maxHeartbeats 1000000 in
/-- The body on whole staging buffers: the three inputs at contents `x0 x1 x2`, the outputs at anything; it ends with the
    inputs unchanged and each output at the sum of its input. -/
theorem sound_kernel0 (c : Dev nD) (E : Set ℕ) (i : grid0.Coords)
    (a1 : Memref sig .tc .vmem S16x128x48 .f32) (h1 : a1.IsWhole) (a2 : Memref sig .tc .vmem S16x128x1024 .f32) (h2 : a2.IsWhole)
    (a3 : Memref sig .tc .vmem S16x128x1024 .f32) (h3 : a3.IsWhole) (a4 : Memref sig .tc .vmem S16x48 .f32) (h4 : a4.IsWhole)
    (a5 : Memref sig .tc .vmem S16x1024 .f32) (h5 : a5.IsWhole) (a6 : Memref sig .tc .vmem S16x1024 .f32) (h6 : a6.IsWhole)
    (x0 : Vec F S16x128x48 .f32) (x1 x2 : Vec F S16x128x1024 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0) ∗ owns (c : Thread nD τ) a5 fullShare (out0_4 x1) ∗ owns (c : Thread nD τ) a6 fullShare (out0_5 x2)) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_J _)
  isplitl [H4]
  · iexists _; isplitr
    swap; · iexact H4
    ipureintro
    exact View.read_writes_eq_canon _ _ _ (cover0_W _)
  iexists _; isplitr
  swap; · iexact H5
  ipureintro
  exact View.read_writes_eq_canon _ _ _ (cover0_W _)

/-- The stage's proof data on core `c`: the arrays as entered; after the body at point `t` each input buffer at its block
    and each output buffer at the sum of the matching input block; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 1 t)
    | ⟨5, _⟩ => out0_5 (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 1 t) := by dsimp only [dat0]
theorem after0_5 (c : Dev nD) (t : Fin cfg0.N) : (dat0 V c).after 5 t = out0_5 (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameK.Region1.lean ====
/-
  The dense stage: a grid of 8 points, point t holding batch rows 128t … 128t+127. At each point the body reads one
  [128,2096] block of the pooled features, the whole [2096,1024] weight and the [1,1024] bias row (both resident: their
  block index never moves), and stores max(block · weight + bias, 0) whole into the [128,1024] output block. Stated at
  an arbitrary valuation `V` of the buffers at the stage's entry and at any float instance.
-/
import proofs.«161936_j50259707298335_1_alg».proof.Proof.Gen.Kernel.Launch
import proofs.«161936_j50259707298335_1_alg».proof.Proof.Gen.Kernel.Skeleton
import proofs.«161936_j50259707298335_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array in the entry valuation. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, fetched there or not (a
    resident window is fetched at the first point only, and its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rH : Rect S128x2096 := Rect.unit (s := S128x2096) ![0, 0] S128x2096.size inb_S128x2096_S128x2096_0_0
abbrev rWt : Rect S2096x1024 := Rect.unit (s := S2096x1024) ![0, 0] S2096x1024.size inb_S2096x1024_S2096x1024_0_0
abbrev rB : Rect S1x1024 := Rect.unit (s := S1x1024) ![0, 0] S1x1024.size inb_S1x1024_S1x1024_0_0
abbrev rO : Rect S128x1024 := Rect.unit (s := S128x1024) ![0, 0] S128x1024.size inb_S128x1024_S128x1024_0_0

/-- What the body leaves in the output block: max(features · weight + bias, 0), stored whole. -/
def out1_3 (x0 : Vec F S128x2096 .bf16) (x1 : Vec F S2096x1024 .bf16) (x2 : Vec F S1x1024 .f32) : Vec F S128x1024 .f32 :=
  View.canon [⟨rO, k1_pay1 (View.ld x0 rH) (View.ld x1 rWt) (View.ld x2 rB)⟩]

/-- One whole-block store covers its block. -/
theorem cover1_O (p0 : Vec F S128x1024 .f32) (y : S128x1024.Idx) :
    ∃ pc ∈ ([⟨rO, p0⟩] : List (View.Piece (Elt F) S128x1024 .f32)), y ∈ pc.1.set :=
  View.cover_of_tiled [⟨rO, p0⟩] S128x1024.size (by rfl) y

set_option maxHeartbeats 1000000 in
/-- The body on whole staging buffers: the three inputs at contents `x0 x1 x2`, the output at anything; it ends with the
    inputs unchanged and the output at max(x0 · x1 + x2, 0). -/
theorem sound_kernel1 (c : Dev nD) (E : Set ℕ) (i : grid1.Coords)
    (a1 : Memref sig .tc .vmem S128x2096 .bf16) (h1 : a1.IsWhole) (a2 : Memref sig .tc .vmem S2096x1024 .bf16) (h2 : a2.IsWhole)
    (a3 : Memref sig .tc .vmem S1x1024 .f32) (h3 : a3.IsWhole) (a4 : Memref sig .tc .vmem S128x1024 .f32) (h4 : a4.IsWhole)
    (x0 : Vec F S128x2096 .bf16) (x1 : Vec F S2096x1024 .bf16) (x2 : Vec F S1x1024 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out1_3 x0 x1 x2)) -∗ K ⟨⟩))
      ⊢ wp frame (wpE (defs₀ (F := F)) Variants.none c none) E (cc1__matmul_relu_kernel i a1 h1 a2 h2 a3 h3 a4 h4) K := by
  simp only [cc1__matmul_relu_kernel_eq_skeleton]; unfold cc1__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_O _)

/-- The stage's proof data on core `c`: the arrays as entered; after the body at point `t` each input buffer at its block
    and the output buffer at max(features · weight + bias, 0) of those blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameK.Run.lean ====
/-
  The whole run of @main: the pooling stage, then the line of host operations (the masked means, the joined features,
  the transposed weight, the bias row), then the dense stage. The buffers' contents are followed boundary by boundary:
  at launch, after the pooling stage (its three result arrays at what its write-backs leave, everything else as
  launched), after the host line (its fold over those contents), after the dense stage (its result array at what its
  write-backs leave). Every weakly fair execution terminates with every unscoped buffer at the last of these, so each
  argument array ends as launched and the result array ends at the dense stage's write-backs.
-/
import proofs.«161936_j50259707298335_1_alg».proof.Proof.Gen.Kernel.Launch
import proofs.«161936_j50259707298335_1_alg».proof.Proof.Gen.Kernel.Skeleton
import proofs.«161936_j50259707298335_1_alg».proof.Proof.Gen.Kernel.Points
import proofs.«161936_j50259707298335_1_alg».proof.Proof.Gen.Kernel.Regions
import proofs.«161936_j50259707298335_1_alg».proof.Proof.FrameK.Region0
import proofs.«161936_j50259707298335_1_alg».proof.Proof.FrameK.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev WA : Dev nD → Valuation τ sig (Elt F) := fun c b => (s₀ m ρ).mem ((c : Dev nD), b)
abbrev VA : (c : Dev nD) → (b : Ref sig .tc) → Buf (Elt F) ((c : Thread nD τ).loc b) := fun c b => WA m ρ c b
/-- After the pooling stage: its arrays at what the pipeline leaves, every other buffer as launched. -/
def WB (c : Dev nD) : Valuation τ sig (Elt F) :=
  Pipeline.withArrays spec0 c (WA m ρ c) fun w => (dat0 (VA m ρ) c).arrAt w cfg0.N
theorem WB_arr (c : Dev nD) (w : Fin cfg0.W) :
    WB m ρ c (Proc.devRef .tc (Pipeline.arrRef spec0 w)) = (dat0 (VA m ρ) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m ρ c (Proc.devRef .tc b) = WA m ρ c (Proc.devRef .tc b) := by
  unfold WB; exact Pipeline.withArrays_of_ne spec0 c _ _ b hb
abbrev VB : (c : Dev nD) → (b : Ref sig .tc) → Buf (Elt F) ((c : Thread nD τ).loc b) := fun c b => WB m ρ c b
theorem hF0 (c : Dev nD) (w : Fin cfg0.W) : (dat0 (VA m ρ) c).arrAt w cfg0.N = VB m ρ c (Pipeline.arrRef spec0 w) :=
  (WB_arr m ρ c w).symm
theorem hrest0 (c : Dev nD) : ∀ b, b ∉ Finset.univ.image (Pipeline.arrRef spec0) → VB m ρ c b = VA m ρ c b :=
  fun b hb => WB_of_ne m ρ c b fun w e => hb (Finset.mem_image.mpr ⟨w, Finset.mem_univ _, e⟩)

/-- After the host line. -/
abbrev WC : Dev nD → Valuation τ sig (Elt F) := fun c => StableHlo.after hostOps1 (WB m ρ c)
abbrev VC : (c : Dev nD) → (b : Ref sig .tc) → Buf (Elt F) ((c : Thread nD τ).loc b) := fun c b => WC m ρ c b
/-- After the dense stage: its arrays at what the pipeline leaves, every other buffer as entered. -/
def WD (c : Dev nD) : Valuation τ sig (Elt F) :=
  Pipeline.withArrays spec1 c (WC m ρ c) fun w => (dat1 (VC m ρ) c).arrAt w cfg1.N
theorem WD_arr (c : Dev nD) (w : Fin cfg1.W) :
    WD m ρ c (Proc.devRef .tc (Pipeline.arrRef spec1 w)) = (dat1 (VC m ρ) c).arrAt w cfg1.N := by
  unfold WD; exact Pipeline.withArrays_arr spec1 launch1.win.arr_inj c _ _ w
theorem WD_of_ne (c : Dev nD) (b : Ref sig .tc) (hb : ∀ w, Pipeline.arrRef spec1 w ≠ b) :
    WD m ρ c (Proc.devRef .tc b) = WC m ρ c (Proc.devRef .tc b) := by
  unfold WD; exact Pipeline.withArrays_of_ne spec1 c _ _ b hb
abbrev VD : (c : Dev nD) → (b : Ref sig .tc) → Buf (Elt F) ((c : Thread nD τ).loc b) := fun c b => WD m ρ c b
theorem hF1 (c : Dev nD) (w : Fin cfg1.W) : (dat1 (VC m ρ) c).arrAt w cfg1.N = VD m ρ c (Pipeline.arrRef spec1 w) :=
  (WD_arr m ρ c w).symm
theorem hrest1 (c : Dev nD) : ∀ b, b ∉ Finset.univ.image (Pipeline.arrRef spec1) → VD m ρ c b = VC m ρ c b :=
  fun b hb => WD_of_ne m ρ c b fun w e => hb (Finset.mem_image.mpr ⟨w, Finset.mem_univ _, e⟩)

/-! ### The arguments end as launched: the pooling stage only reads the three sequence tensors, the host line writes
    none of the five, and the dense stage reads none of them -/

theorem WD_main_arg0 (c : Dev nD) : WD m ρ c (Proc.devRef .tc main_arg0) = m ((c : Thread nD τ).loc main_arg0) :=
  calc WD m ρ c (Proc.devRef .tc main_arg0)
    _ = WC m ρ c (Proc.devRef .tc main_arg0) := WD_of_ne m ρ c main_arg0 (by decide)
    _ = WB m ρ c (Proc.devRef .tc main_arg0) := StableHlo.after_of_writes_sub hostOps1 _ hostOps1_writes (by decide)
    _ = WA m ρ c (Proc.devRef .tc main_arg0) := (WB_arr m ρ c 0).trans (((dat0 (VA m ρ) c).arrAt_in 0 rfl _).trans (A_eq0 (VA m ρ) c 0))
    _ = m ((c : Thread nD τ).loc main_arg0) := rfl
theorem WD_main_arg1 (c : Dev nD) : WD m ρ c (Proc.devRef .tc main_arg1) = m ((c : Thread nD τ).loc main_arg1) :=
  calc WD m ρ c (Proc.devRef .tc main_arg1)
    _ = WC m ρ c (Proc.devRef .tc main_arg1) := WD_of_ne m ρ c main_arg1 (by decide)
    _ = WB m ρ c (Proc.devRef .tc main_arg1) := StableHlo.after_of_writes_sub hostOps1 _ hostOps1_writes (by decide)
    _ = WA m ρ c (Proc.devRef .tc main_arg1) := (WB_arr m ρ c 1).trans (((dat0 (VA m ρ) c).arrAt_in 1 rfl _).trans (A_eq0 (VA m ρ) c 1))
    _ = m ((c : Thread nD τ).loc main_arg1) := rfl
theorem WD_main_arg2 (c : Dev nD) : WD m ρ c (Proc.devRef .tc main_arg2) = m ((c : Thread nD τ).loc main_arg2) :=
  calc WD m ρ c (Proc.devRef .tc main_arg2)
    _ = WC m ρ c (Proc.devRef .tc main_arg2) := WD_of_ne m ρ c main_arg2 (by decide)
    _ = WB m ρ c (Proc.devRef .tc main_arg2) := StableHlo.after_of_writes_sub hostOps1 _ hostOps1_writes (by decide)
    _ = WA m ρ c (Proc.devRef .tc main_arg2) := (WB_arr m ρ c 2).trans (((dat0 (VA m ρ) c).arrAt_in 2 rfl _).trans (A_eq0 (VA m ρ) c 2))
    _ = m ((c : Thread nD τ).loc main_arg2) := rfl
theorem WD_main_arg3 (c : Dev nD) : WD m ρ c (Proc.devRef .tc main_arg3) = m ((c : Thread nD τ).loc main_arg3) :=
  calc WD m ρ c (Proc.devRef .tc main_arg3)
    _ = WC m ρ c (Proc.devRef .tc main_arg3) := WD_of_ne m ρ c main_arg3 (by decide)
    _ = WB m ρ c (Proc.devRef .tc main_arg3) := StableHlo.after_of_writes_sub hostOps1 _ hostOps1_writes (by decide)
    _ = WA m ρ c (Proc.devRef .tc main_arg3) := WB_of_ne m ρ c main_arg3 (by decide)
    _ = m ((c : Thread nD τ).loc main_arg3) := rfl
theorem WD_main_arg4 (c : Dev nD) : WD m ρ c (Proc.devRef .tc main_arg4) = m ((c : Thread nD τ).loc main_arg4) :=
  calc WD m ρ c (Proc.devRef .tc main_arg4)
    _ = WC m ρ c (Proc.devRef .tc main_arg4) := WD_of_ne m ρ c main_arg4 (by decide)
    _ = WB m ρ c (Proc.devRef .tc main_arg4) := StableHlo.after_of_writes_sub hostOps1 _ hostOps1_writes (by decide)
    _ = WA m ρ c (Proc.devRef .tc main_arg4) := WB_of_ne m ρ c main_arg4 (by decide)
    _ = m ((c : Thread nD τ).loc main_arg4) := rfl

/-! ## The proof data family and the thread state -/

/-- Each stage's proof data at its own entry contents. -/
def pdatsH : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VC m ρ) c
abbrev 𝒱h : Variants := Variants.none
/-- No core owes another anything. -/
abbrev Lh : GSem nD τ sig → Finset Unit := fun _ => ∅
abbrev lvh : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- The host line as a segment from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tend (c : Dev nD) : sProp 𝕄 := iprop(StableHlo.held (c : Thread nD τ) (Pipeline.ucRefs τ sig) (WD m ρ c) ∗ ∃ r, prngReg c r)

/-! ## The stages as segments -/

set_option backward.isDefEq.respectTransparency.types false in
/-- The pooling stage over the thread state: entered from every unscoped buffer at the launch contents, left at `WB`. -/
def reg0 : Pipeline.RegionSeg (pcfgs (F := F)) adm (pdatsH m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ Lh lvh 0 fun _ _ => rfl
  pre c := iprop(StableHlo.held (c : Thread nD τ) (Pipeline.ucRefs τ sig) (WA m ρ c) ∗ Rr c)
  post c := iprop(StableHlo.held (c : Thread nD τ) (Pipeline.ucRefs τ sig) (WB m ρ c) ∗ Rr c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (VA m ρ c) (VB m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dense stage over the thread state: entered from every unscoped buffer at `WC`, left at `WD`. -/
def reg1 : Pipeline.RegionSeg (pcfgs (F := F)) adm (pdatsH m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (VC m ρ) c).loose
  hwaits := Pipeline.hwaits_of_owed_zero _ _ _ _ Lh lvh 1 fun _ _ => rfl
  pre c := iprop(StableHlo.held (c : Thread nD τ) (Pipeline.ucRefs τ sig) (WC m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VC m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (VC m ρ c) (VD m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m ρ) () defs₀ 𝒱h Lh lvh) :=
  [ .region (reg0 m ρ),
    .host (hsegH hostOps1 hostOps1_sub hostOps1_fresh (WB m ρ)),
    .region (reg1 m ρ) ]
theorem main_run (c : Dev nD) : main (F := F) c = Pipeline.Seg.run (segsH m ρ) := (main_chain c).trans (by chain_rfl)

set_option backward.isDefEq.respectTransparency.types false in
/-- From any memory with zero counters every weakly fair execution of @main terminates, nothing faulting, and every
    unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = WD m ρ c b) :=
  Pipeline.θ_run_regions_kit (pcfgs (F := F)) adm (pdatsH m ρ) () cellOf_inj emb₁ defs₀ 𝒱h Lh lvh m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m ρ c) ∗ Rr c)) (Tₙ := Tend m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (WA m ρ c)
        from Pipeline.unscopedBufs_held c (WA m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m ρ c b)
    (hfin := fun c s' => by
      iintro ⟨⟨Hh, -⟩, HSI⟩
      unfold StableHlo.held
      imodintro
      iapply (pointsTo_read_all (Pipeline.ucRefs τ sig) (fun b => (((c : Thread nD τ)).1, b)) (WD m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (WD_main_arg0 m ρ c),
     (h c _ (mem_uc main_arg1 (by decide))).trans (WD_main_arg1 m ρ c),
     (h c _ (mem_uc main_arg2 (by decide))).trans (WD_main_arg2 m ρ c),
     (h c _ (mem_uc main_arg3 (by decide))).trans (WD_main_arg3 m ρ c),
     (h c _ (mem_uc main_arg4 (by decide))).trans (WD_main_arg4 m ρ c)⟩) (run_main m ρ)

/-- The result array ends at what the dense stage's write-backs leave, beside the arguments as launched. -/
theorem run_result : θ_run defs (onTc (τ := τ) (main (F := F))) ⟨m, fun _ => 0, ρ⟩ (fun r => ∀ c : Dev nD,
      r.2.mem ((c.tc : Thread nD τ).loc main_v33) = (dat1 (VC m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v33 (by decide))).trans (WD_arr m ρ c 3),
     (h c _ (mem_uc main_arg0 (by decide))).trans (WD_main_arg0 m ρ c),
     (h c _ (mem_uc main_arg1 (by decide))).trans (WD_main_arg1 m ρ c),
     (h c _ (mem_uc main_arg2 (by decide))).trans (WD_main_arg2 m ρ c),
     (h c _ (mem_uc main_arg3 (by decide))).trans (WD_main_arg3 m ρ c),
     (h c _ (mem_uc main_arg4 (by decide))).trans (WD_main_arg4 m ρ c)⟩) (run_main m ρ)

end Cert.Kernel.Fr

end
-- ==== Proof.FrameKI.Region0.lean ====
/-
  The pooling stage: a grid of 64 points, point t holding batch rows 16t … 16t+15. At each point the body reads one
  block of each of the three sequence tensors ([16,128,48], [16,128,1024], [16,128,1024]), sums each over the sequence
  axis, and stores the three sums whole into the three output blocks ([16,48], [16,1024], [16,1024]). Stated at an
  arbitrary valuation `V` of the buffers at the stage's entry and at any float instance.
-/
import proofs.«161936_j50259707298335_1_alg».proof.Proof.Gen.KernelIdeal.Launch
import proofs.«161936_j50259707298335_1_alg».proof.Proof.Gen.KernelIdeal.Skeleton
import proofs.«161936_j50259707298335_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array in the entry valuation. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rJ : Rect S16x128x48 := Rect.unit (s := S16x128x48) ![0, 0, 0] S16x128x48.size inb_S16x128x48_S16x128x48_0_0_0
abbrev rW : Rect S16x128x1024 := Rect.unit (s := S16x128x1024) ![0, 0, 0] S16x128x1024.size inb_S16x128x1024_S16x128x1024_0_0_0
abbrev rSJ : Rect S16x48 := Rect.unit (s := S16x48) ![0, 0] S16x48.size inb_S16x48_S16x48_0_0
abbrev rSW : Rect S16x1024 := Rect.unit (s := S16x1024) ![0, 0] S16x1024.size inb_S16x1024_S16x1024_0_0

/-- What the body leaves in each output block: the sequence-axis sum of the matching input block, stored whole. -/
def out0_3 (x0 : Vec F S16x128x48 .f32) : Vec F S16x48 .f32 :=
  View.canon [⟨rSJ, k0_pay1 (View.ld x0 rJ)⟩]
def out0_4 (x1 : Vec F S16x128x1024 .f32) : Vec F S16x1024 .f32 :=
  View.canon [⟨rSW, k0_pay2 (View.ld x1 rW)⟩]
def out0_5 (x2 : Vec F S16x128x1024 .f32) : Vec F S16x1024 .f32 :=
  View.canon [⟨rSW, k0_pay3 (View.ld x2 rW)⟩]

/-- One whole-block store covers its block. -/
theorem cover0_J (p0 : Vec F S16x48 .f32) (y : S16x48.Idx) :
    ∃ pc ∈ ([⟨rSJ, p0⟩] : List (View.Piece (Elt F) S16x48 .f32)), y ∈ pc.1.set :=
  View.cover_of_tiled [⟨rSJ, p0⟩] S16x48.size (by rfl) y
theorem cover0_W (p0 : Vec F S16x1024 .f32) (y : S16x1024.Idx) :
    ∃ pc ∈ ([⟨rSW, p0⟩] : List (View.Piece (Elt F) S16x1024 .f32)), y ∈ pc.1.set :=
  View.cover_of_tiled [⟨rSW, p0⟩] S16x1024.size (by rfl) y

set_option maxHeartbeats 1000000 in
/-- The body on whole staging buffers: the three inputs at contents `x0 x1 x2`, the outputs at anything; it ends with the
    inputs unchanged and each output at the sum of its input. -/
theorem sound_kernel0 (c : Dev nD) (E : Set ℕ) (i : grid0.Coords)
    (a1 : Memref sig .tc .vmem S16x128x48 .f32) (h1 : a1.IsWhole) (a2 : Memref sig .tc .vmem S16x128x1024 .f32) (h2 : a2.IsWhole)
    (a3 : Memref sig .tc .vmem S16x128x1024 .f32) (h3 : a3.IsWhole) (a4 : Memref sig .tc .vmem S16x48 .f32) (h4 : a4.IsWhole)
    (a5 : Memref sig .tc .vmem S16x1024 .f32) (h5 : a5.IsWhole) (a6 : Memref sig .tc .vmem S16x1024 .f32) (h6 : a6.IsWhole)
    (x0 : Vec F S16x128x48 .f32) (x1 x2 : Vec F S16x128x1024 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0) ∗ owns (c : Thread nD τ) a5 fullShare (out0_4 x1) ∗ owns (c : Thread nD τ) a6 fullShare (out0_5 x2)) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_J _)
  isplitl [H4]
  · iexists _; isplitr
    swap; · iexact H4
    ipureintro
    exact View.read_writes_eq_canon _ _ _ (cover0_W _)
  iexists _; isplitr
  swap; · iexact H5
  ipureintro
  exact View.read_writes_eq_canon _ _ _ (cover0_W _)

/-- The stage's proof data on core `c`: the arrays as entered; after the body at point `t` each input buffer at its block
    and each output buffer at the sum of the matching input block; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 1 t)
    | ⟨5, _⟩ => out0_5 (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 1 t) := by dsimp only [dat0]
theorem after0_5 (c : Dev nD) (t : Fin cfg0.N) : (dat0 V c).after 5 t = out0_5 (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameKI.Region1.lean ====
/-
  The dense stage: a grid of 8 points, point t holding batch rows 128t … 128t+127. At each point the body reads one
  [128,2096] block of the pooled features, the whole [2096,1024] weight and the [1,1024] bias row (both resident: their
  block index never moves), and stores max(block · weight + bias, 0) whole into the [128,1024] output block. Stated at
  an arbitrary valuation `V` of the buffers at the stage's entry and at any float instance.
-/
import proofs.«161936_j50259707298335_1_alg».proof.Proof.Gen.KernelIdeal.Launch
import proofs.«161936_j50259707298335_1_alg».proof.Proof.Gen.KernelIdeal.Skeleton
import proofs.«161936_j50259707298335_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array in the entry valuation. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, fetched there or not (a
    resident window is fetched at the first point only, and its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rH : Rect S128x2096 := Rect.unit (s := S128x2096) ![0, 0] S128x2096.size inb_S128x2096_S128x2096_0_0
abbrev rWt : Rect S2096x1024 := Rect.unit (s := S2096x1024) ![0, 0] S2096x1024.size inb_S2096x1024_S2096x1024_0_0
abbrev rB : Rect S1x1024 := Rect.unit (s := S1x1024) ![0, 0] S1x1024.size inb_S1x1024_S1x1024_0_0
abbrev rO : Rect S128x1024 := Rect.unit (s := S128x1024) ![0, 0] S128x1024.size inb_S128x1024_S128x1024_0_0

/-- What the body leaves in the output block: max(features · weight + bias, 0), stored whole. -/
def out1_3 (x0 : Vec F S128x2096 .bf16) (x1 : Vec F S2096x1024 .bf16) (x2 : Vec F S1x1024 .f32) : Vec F S128x1024 .f32 :=
  View.canon [⟨rO, k1_pay1 (View.ld x0 rH) (View.ld x1 rWt) (View.ld x2 rB)⟩]

/-- One whole-block store covers its block. -/
theorem cover1_O (p0 : Vec F S128x1024 .f32) (y : S128x1024.Idx) :
    ∃ pc ∈ ([⟨rO, p0⟩] : List (View.Piece (Elt F) S128x1024 .f32)), y ∈ pc.1.set :=
  View.cover_of_tiled [⟨rO, p0⟩] S128x1024.size (by rfl) y

set_option maxHeartbeats 1000000 in
/-- The body on whole staging buffers: the three inputs at contents `x0 x1 x2`, the output at anything; it ends with the
    inputs unchanged and the output at max(x0 · x1 + x2, 0). -/
theorem sound_kernel1 (c : Dev nD) (E : Set ℕ) (i : grid1.Coords)
    (a1 : Memref sig .tc .vmem S128x2096 .bf16) (h1 : a1.IsWhole) (a2 : Memref sig .tc .vmem S2096x1024 .bf16) (h2 : a2.IsWhole)
    (a3 : Memref sig .tc .vmem S1x1024 .f32) (h3 : a3.IsWhole) (a4 : Memref sig .tc .vmem S128x1024 .f32) (h4 : a4.IsWhole)
    (x0 : Vec F S128x2096 .bf16) (x1 : Vec F S2096x1024 .bf16) (x2 : Vec F S1x1024 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out1_3 x0 x1 x2)) -∗ K ⟨⟩))
      ⊢ wp frame (wpE (defs₀ (F := F)) Variants.none c none) E (cc1__matmul_relu_kernel i a1 h1 a2 h2 a3 h3 a4 h4) K := by
  simp only [cc1__matmul_relu_kernel_eq_skeleton]; unfold cc1__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_O _)

/-- The stage's proof data on core `c`: the arrays as entered; after the body at point `t` each input buffer at its block
    and the output buffer at max(features · weight + bias, 0) of those blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameKI.Run.lean ====
/-
  The whole run of @main: the pooling stage, then the line of host operations (the masked means, the joined features,
  the transposed weight, the bias row), then the dense stage. The buffers' contents are followed boundary by boundary:
  at launch, after the pooling stage (its three result arrays at what its write-backs leave, everything else as
  launched), after the host line (its fold over those contents), after the dense stage (its result array at what its
  write-backs leave). Every weakly fair execution terminates with every unscoped buffer at the last of these, so each
  argument array ends as launched and the result array ends at the dense stage's write-backs.
-/
import proofs.«161936_j50259707298335_1_alg».proof.Proof.Gen.KernelIdeal.Launch
import proofs.«161936_j50259707298335_1_alg».proof.Proof.Gen.KernelIdeal.Skeleton
import proofs.«161936_j50259707298335_1_alg».proof.Proof.Gen.KernelIdeal.Points
import proofs.«161936_j50259707298335_1_alg».proof.Proof.Gen.KernelIdeal.Regions
import proofs.«161936_j50259707298335_1_alg».proof.Proof.FrameKI.Region0
import proofs.«161936_j50259707298335_1_alg».proof.Proof.FrameKI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev WA : Dev nD → Valuation τ sig (Elt F) := fun c b => (s₀ m ρ).mem ((c : Dev nD), b)
abbrev VA : (c : Dev nD) → (b : Ref sig .tc) → Buf (Elt F) ((c : Thread nD τ).loc b) := fun c b => WA m ρ c b
/-- After the pooling stage: its arrays at what the pipeline leaves, every other buffer as launched. -/
def WB (c : Dev nD) : Valuation τ sig (Elt F) :=
  Pipeline.withArrays spec0 c (WA m ρ c) fun w => (dat0 (VA m ρ) c).arrAt w cfg0.N
theorem WB_arr (c : Dev nD) (w : Fin cfg0.W) :
    WB m ρ c (Proc.devRef .tc (Pipeline.arrRef spec0 w)) = (dat0 (VA m ρ) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m ρ c (Proc.devRef .tc b) = WA m ρ c (Proc.devRef .tc b) := by
  unfold WB; exact Pipeline.withArrays_of_ne spec0 c _ _ b hb
abbrev VB : (c : Dev nD) → (b : Ref sig .tc) → Buf (Elt F) ((c : Thread nD τ).loc b) := fun c b => WB m ρ c b
theorem hF0 (c : Dev nD) (w : Fin cfg0.W) : (dat0 (VA m ρ) c).arrAt w cfg0.N = VB m ρ c (Pipeline.arrRef spec0 w) :=
  (WB_arr m ρ c w).symm
theorem hrest0 (c : Dev nD) : ∀ b, b ∉ Finset.univ.image (Pipeline.arrRef spec0) → VB m ρ c b = VA m ρ c b :=
  fun b hb => WB_of_ne m ρ c b fun w e => hb (Finset.mem_image.mpr ⟨w, Finset.mem_univ _, e⟩)

/-- After the host line. -/
abbrev WC : Dev nD → Valuation τ sig (Elt F) := fun c => StableHlo.after hostOps1 (WB m ρ c)
abbrev VC : (c : Dev nD) → (b : Ref sig .tc) → Buf (Elt F) ((c : Thread nD τ).loc b) := fun c b => WC m ρ c b
/-- After the dense stage: its arrays at what the pipeline leaves, every other buffer as entered. -/
def WD (c : Dev nD) : Valuation τ sig (Elt F) :=
  Pipeline.withArrays spec1 c (WC m ρ c) fun w => (dat1 (VC m ρ) c).arrAt w cfg1.N
theorem WD_arr (c : Dev nD) (w : Fin cfg1.W) :
    WD m ρ c (Proc.devRef .tc (Pipeline.arrRef spec1 w)) = (dat1 (VC m ρ) c).arrAt w cfg1.N := by
  unfold WD; exact Pipeline.withArrays_arr spec1 launch1.win.arr_inj c _ _ w
theorem WD_of_ne (c : Dev nD) (b : Ref sig .tc) (hb : ∀ w, Pipeline.arrRef spec1 w ≠ b) :
    WD m ρ c (Proc.devRef .tc b) = WC m ρ c (Proc.devRef .tc b) := by
  unfold WD; exact Pipeline.withArrays_of_ne spec1 c _ _ b hb
abbrev VD : (c : Dev nD) → (b : Ref sig .tc) → Buf (Elt F) ((c : Thread nD τ).loc b) := fun c b => WD m ρ c b
theorem hF1 (c : Dev nD) (w : Fin cfg1.W) : (dat1 (VC m ρ) c).arrAt w cfg1.N = VD m ρ c (Pipeline.arrRef spec1 w) :=
  (WD_arr m ρ c w).symm
theorem hrest1 (c : Dev nD) : ∀ b, b ∉ Finset.univ.image (Pipeline.arrRef spec1) → VD m ρ c b = VC m ρ c b :=
  fun b hb => WD_of_ne m ρ c b fun w e => hb (Finset.mem_image.mpr ⟨w, Finset.mem_univ _, e⟩)

/-! ### The arguments end as launched: the pooling stage only reads the three sequence tensors, the host line writes
    none of the five, and the dense stage reads none of them -/

theorem WD_main_arg0 (c : Dev nD) : WD m ρ c (Proc.devRef .tc main_arg0) = m ((c : Thread nD τ).loc main_arg0) :=
  calc WD m ρ c (Proc.devRef .tc main_arg0)
    _ = WC m ρ c (Proc.devRef .tc main_arg0) := WD_of_ne m ρ c main_arg0 (by decide)
    _ = WB m ρ c (Proc.devRef .tc main_arg0) := StableHlo.after_of_writes_sub hostOps1 _ hostOps1_writes (by decide)
    _ = WA m ρ c (Proc.devRef .tc main_arg0) := (WB_arr m ρ c 0).trans (((dat0 (VA m ρ) c).arrAt_in 0 rfl _).trans (A_eq0 (VA m ρ) c 0))
    _ = m ((c : Thread nD τ).loc main_arg0) := rfl
theorem WD_main_arg1 (c : Dev nD) : WD m ρ c (Proc.devRef .tc main_arg1) = m ((c : Thread nD τ).loc main_arg1) :=
  calc WD m ρ c (Proc.devRef .tc main_arg1)
    _ = WC m ρ c (Proc.devRef .tc main_arg1) := WD_of_ne m ρ c main_arg1 (by decide)
    _ = WB m ρ c (Proc.devRef .tc main_arg1) := StableHlo.after_of_writes_sub hostOps1 _ hostOps1_writes (by decide)
    _ = WA m ρ c (Proc.devRef .tc main_arg1) := (WB_arr m ρ c 1).trans (((dat0 (VA m ρ) c).arrAt_in 1 rfl _).trans (A_eq0 (VA m ρ) c 1))
    _ = m ((c : Thread nD τ).loc main_arg1) := rfl
theorem WD_main_arg2 (c : Dev nD) : WD m ρ c (Proc.devRef .tc main_arg2) = m ((c : Thread nD τ).loc main_arg2) :=
  calc WD m ρ c (Proc.devRef .tc main_arg2)
    _ = WC m ρ c (Proc.devRef .tc main_arg2) := WD_of_ne m ρ c main_arg2 (by decide)
    _ = WB m ρ c (Proc.devRef .tc main_arg2) := StableHlo.after_of_writes_sub hostOps1 _ hostOps1_writes (by decide)
    _ = WA m ρ c (Proc.devRef .tc main_arg2) := (WB_arr m ρ c 2).trans (((dat0 (VA m ρ) c).arrAt_in 2 rfl _).trans (A_eq0 (VA m ρ) c 2))
    _ = m ((c : Thread nD τ).loc main_arg2) := rfl
theorem WD_main_arg3 (c : Dev nD) : WD m ρ c (Proc.devRef .tc main_arg3) = m ((c : Thread nD τ).loc main_arg3) :=
  calc WD m ρ c (Proc.devRef .tc main_arg3)
    _ = WC m ρ c (Proc.devRef .tc main_arg3) := WD_of_ne m ρ c main_arg3 (by decide)
    _ = WB m ρ c (Proc.devRef .tc main_arg3) := StableHlo.after_of_writes_sub hostOps1 _ hostOps1_writes (by decide)
    _ = WA m ρ c (Proc.devRef .tc main_arg3) := WB_of_ne m ρ c main_arg3 (by decide)
    _ = m ((c : Thread nD τ).loc main_arg3) := rfl
theorem WD_main_arg4 (c : Dev nD) : WD m ρ c (Proc.devRef .tc main_arg4) = m ((c : Thread nD τ).loc main_arg4) :=
  calc WD m ρ c (Proc.devRef .tc main_arg4)
    _ = WC m ρ c (Proc.devRef .tc main_arg4) := WD_of_ne m ρ c main_arg4 (by decide)
    _ = WB m ρ c (Proc.devRef .tc main_arg4) := StableHlo.after_of_writes_sub hostOps1 _ hostOps1_writes (by decide)
    _ = WA m ρ c (Proc.devRef .tc main_arg4) := WB_of_ne m ρ c main_arg4 (by decide)
    _ = m ((c : Thread nD τ).loc main_arg4) := rfl

/-! ## The proof data family and the thread state -/

/-- Each stage's proof data at its own entry contents. -/
def pdatsH : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VC m ρ) c
abbrev 𝒱h : Variants := Variants.none
/-- No core owes another anything. -/
abbrev Lh : GSem nD τ sig → Finset Unit := fun _ => ∅
abbrev lvh : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- The host line as a segment from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tend (c : Dev nD) : sProp 𝕄 := iprop(StableHlo.held (c : Thread nD τ) (Pipeline.ucRefs τ sig) (WD m ρ c) ∗ ∃ r, prngReg c r)

/-! ## The stages as segments -/

set_option backward.isDefEq.respectTransparency.types false in
/-- The pooling stage over the thread state: entered from every unscoped buffer at the launch contents, left at `WB`. -/
def reg0 : Pipeline.RegionSeg (pcfgs (F := F)) adm (pdatsH m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ Lh lvh 0 fun _ _ => rfl
  pre c := iprop(StableHlo.held (c : Thread nD τ) (Pipeline.ucRefs τ sig) (WA m ρ c) ∗ Rr c)
  post c := iprop(StableHlo.held (c : Thread nD τ) (Pipeline.ucRefs τ sig) (WB m ρ c) ∗ Rr c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (VA m ρ c) (VB m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dense stage over the thread state: entered from every unscoped buffer at `WC`, left at `WD`. -/
def reg1 : Pipeline.RegionSeg (pcfgs (F := F)) adm (pdatsH m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (VC m ρ) c).loose
  hwaits := Pipeline.hwaits_of_owed_zero _ _ _ _ Lh lvh 1 fun _ _ => rfl
  pre c := iprop(StableHlo.held (c : Thread nD τ) (Pipeline.ucRefs τ sig) (WC m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VC m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (VC m ρ c) (VD m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m ρ) () defs₀ 𝒱h Lh lvh) :=
  [ .region (reg0 m ρ),
    .host (hsegH hostOps1 hostOps1_sub hostOps1_fresh (WB m ρ)),
    .region (reg1 m ρ) ]
theorem main_run (c : Dev nD) : main (F := F) c = Pipeline.Seg.run (segsH m ρ) := (main_chain c).trans (by chain_rfl)

set_option backward.isDefEq.respectTransparency.types false in
/-- From any memory with zero counters every weakly fair execution of @main terminates, nothing faulting, and every
    unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = WD m ρ c b) :=
  Pipeline.θ_run_regions_kit (pcfgs (F := F)) adm (pdatsH m ρ) () cellOf_inj emb₁ defs₀ 𝒱h Lh lvh m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m ρ c) ∗ Rr c)) (Tₙ := Tend m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (WA m ρ c)
        from Pipeline.unscopedBufs_held c (WA m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m ρ c b)
    (hfin := fun c s' => by
      iintro ⟨⟨Hh, -⟩, HSI⟩
      unfold StableHlo.held
      imodintro
      iapply (pointsTo_read_all (Pipeline.ucRefs τ sig) (fun b => (((c : Thread nD τ)).1, b)) (WD m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (WD_main_arg0 m ρ c),
     (h c _ (mem_uc main_arg1 (by decide))).trans (WD_main_arg1 m ρ c),
     (h c _ (mem_uc main_arg2 (by decide))).trans (WD_main_arg2 m ρ c),
     (h c _ (mem_uc main_arg3 (by decide))).trans (WD_main_arg3 m ρ c),
     (h c _ (mem_uc main_arg4 (by decide))).trans (WD_main_arg4 m ρ c)⟩) (run_main m ρ)

/-- The result array ends at what the dense stage's write-backs leave, beside the arguments as launched. -/
theorem run_result : θ_run defs (onTc (τ := τ) (main (F := F))) ⟨m, fun _ => 0, ρ⟩ (fun r => ∀ c : Dev nD,
      r.2.mem ((c.tc : Thread nD τ).loc main_v33) = (dat1 (VC m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v33 (by decide))).trans (WD_arr m ρ c 3),
     (h c _ (mem_uc main_arg0 (by decide))).trans (WD_main_arg0 m ρ c),
     (h c _ (mem_uc main_arg1 (by decide))).trans (WD_main_arg1 m ρ c),
     (h c _ (mem_uc main_arg2 (by decide))).trans (WD_main_arg2 m ρ c),
     (h c _ (mem_uc main_arg3 (by decide))).trans (WD_main_arg3 m ρ c),
     (h c _ (mem_uc main_arg4 (by decide))).trans (WD_main_arg4 m ρ c)⟩) (run_main m ρ)

end Cert.KernelIdeal.Fr

end
-- ==== Proof.Spec.lean ====
/-
  The functions the certificate's two sides are compared through, at the exact reals, over literal shapes:
  the sums over the sequence axis (poolJ, poolW); the masked mean of an array of row sums (mmeanJ, mmeanW); the three
  masked means joined along the feature axis (feats); a dense layer with a clamp at zero in the dense stage's own layout
  (dense: weight [2096,1024], bias row [1,1024]) and in the arguments' layout (G: weight [1024,2096] contracted along its
  second axis, bias vector [1024]).
-/
import proofs.«161936_j50259707298335_1_alg».proof.Proof.Gen.KernelIdeal
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx

/-- The sums over the sequence axis of a [1024,128,48] array, as a [1024,48] array. -/
def poolJ (x : S1024x128x48.Idx → EReal) : S1024x48.Idx → EReal :=
  fun i => ∑ l : Fin 128, x (ix3 (n0 := 1024) (n1 := 128) (n2 := 48) (i 0) l (i 1))
/-- The sums over the sequence axis of a [1024,128,1024] array, as a [1024,1024] array. -/
def poolW (x : S1024x128x1024.Idx → EReal) : S1024x1024.Idx → EReal :=
  fun i => ∑ l : Fin 128, x (ix3 (n0 := 1024) (n1 := 128) (n2 := 1024) (i 0) l (i 1))

/-- The masked mean of a [1024,48] array of row sums: each entry over max(n, 1), n the number of rows whose total is
    not zero (counted in 32-bit words and converted). -/
def mmeanJ (s : FVec Ideal S1024x48 .f32) : FVec Ideal S1024x48 .f32 :=
  Host.divf (F := Ideal) s (broadcastInDim S1024x48 ![] bcast_S_S1024x48 (maximumf (F := Ideal) (sitofp (F := Ideal) .f32 (Host.reduce IntOp.addi (extui 32 (cmpf (F := Ideal) .une (Host.reduceAdd (F := Ideal) s (constant (F := Ideal) S_ .f32 0x00000000#32) reducesTo_S1024x48_S1024_d1 h_S_) (broadcastInDim S1024 ![] bcast_S_S1024 (constant (F := Ideal) S_ .f32 0x00000000#32))) natLt_1_32) (constantI S_ 32 0#32) reducesTo_S1024_S_d0 h_S_)) (constant (F := Ideal) S_ .f32 0x3F800000#32)))
/-- The same of a [1024,1024] array. -/
def mmeanW (s : FVec Ideal S1024x1024 .f32) : FVec Ideal S1024x1024 .f32 :=
  Host.divf (F := Ideal) s (broadcastInDim S1024x1024 ![] bcast_S_S1024x1024 (maximumf (F := Ideal) (sitofp (F := Ideal) .f32 (Host.reduce IntOp.addi (extui 32 (cmpf (F := Ideal) .une (Host.reduceAdd (F := Ideal) s (constant (F := Ideal) S_ .f32 0x00000000#32) reducesTo_S1024x1024_S1024_d1 h_S_) (broadcastInDim S1024 ![] bcast_S_S1024 (constant (F := Ideal) S_ .f32 0x00000000#32))) natLt_1_32) (constantI S_ 32 0#32) reducesTo_S1024_S_d0 h_S_)) (constant (F := Ideal) S_ .f32 0x3F800000#32)))
/-- The joined features: the three masked means side by side along the feature axis. -/
def feats (s0 : FVec Ideal S1024x48 .f32) (s1 s2 : FVec Ideal S1024x1024 .f32) : FVec Ideal S1024x2096 .f32 :=
  concatenate S1024x2096 1 [⟨S1024x48, mmeanJ s0⟩, ⟨S1024x1024, mmeanW s1⟩, ⟨S1024x1024, mmeanW s2⟩] concatenates_S1024x48_S1024x1024_S1024x1024_S1024x2096_d1

/-- A dense layer with a clamp at zero: features [1024,2096], weight [2096,1024], bias row [1,1024]. The clamp's floor is
    kept as the zero word's value. -/
def dense (h : S1024x2096.Idx → EReal) (wt : S2096x1024.Idx → EReal) (b : S1x1024.Idx → EReal) : S1024x1024.Idx → EReal :=
  fun i => max ((∑ k : Fin 2096, h (ix2 (n0 := 1024) (n1 := 2096) (i 0) k) * wt (ix2 (n0 := 2096) (n1 := 1024) k (i 1)))
      + b (ix2 (n0 := 1) (n1 := 1024) 0 (i 1))) (Ideal.ofBits .f32 0x00000000#32)

/-- The same layer from a weight [1024,2096] contracted along its second axis and a bias vector [1024]. -/
def G (H : S1024x2096.Idx → EReal) (w : S1024x2096.Idx → EReal) (b : S1024.Idx → EReal) : S1024x1024.Idx → EReal :=
  fun i => max ((∑ k : Fin 2096, H (ix2 (n0 := 1024) (n1 := 2096) (i 0) k) * w (ix2 (n0 := 1024) (n1 := 2096) (i 1) k))
      + b (ix1 (n := 1024) (i 1))) (Ideal.ofBits .f32 0x00000000#32)

end Cert.KernelIdeal.Val

end
-- ==== Proof.ValueR0.lean ====
/-
  What the pooling stage leaves in its three result arrays, at the exact reals: entry (b, d) of each is the sum over
  the sequence positions l of the matching input at (b, l, d). Point t of the grid reads batch rows 16t … 16t+15 of each
  input and writes back the same rows of each result, the blocks tile the result arrays, so each array ends as ONE
  function of the stage's input array. Stated at an arbitrary valuation `V` of the buffers at the stage's entry.
-/
import proofs.«161936_j50259707298335_1_alg».proof.Proof.FrameKI.Region0
import proofs.«161936_j50259707298335_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block index maps over the grid: point `t` holds block `t` of the batch axis, block 0 of the others. -/
theorem idx0_3 : ∀ t : Fin cfg0.N, win0_0.index t (0 : Fin 3) = t.val ∧ win0_0.index t (1 : Fin 3) = 0 ∧ win0_0.index t (2 : Fin 3) = 0
    ∧ win0_3.index t (0 : Fin 2) = t.val ∧ win0_3.index t (1 : Fin 2) = 0 :=
  (by decide +kernel : ∀ t : Fin grid0.N, _)
theorem idx0_4 : ∀ t : Fin cfg0.N, win0_1.index t (0 : Fin 3) = t.val ∧ win0_1.index t (1 : Fin 3) = 0 ∧ win0_1.index t (2 : Fin 3) = 0
    ∧ win0_4.index t (0 : Fin 2) = t.val ∧ win0_4.index t (1 : Fin 2) = 0 :=
  (by decide +kernel : ∀ t : Fin grid0.N, _)
theorem idx0_5 : ∀ t : Fin cfg0.N, win0_2.index t (0 : Fin 3) = t.val ∧ win0_2.index t (1 : Fin 3) = 0 ∧ win0_2.index t (2 : Fin 3) = 0
    ∧ win0_5.index t (0 : Fin 2) = t.val ∧ win0_5.index t (1 : Fin 2) = 0 :=
  (by decide +kernel : ∀ t : Fin grid0.N, _)

/-- The body's sum over the sequence axis, read at row `p` and feature `q` of the block. -/
theorem pay1_apply (x0 : Vec Ideal S16x128x48 .f32) (p : Fin 16) (q : Fin 48) :
    k0_pay1 (F := Ideal) x0 (ix2 p q) = ∑ l : Fin 128, x0 (ix3 p l q) := by
  unfold k0_pay1
  refine (Ideal.multiReduction_add_single x0 0x00000000#32 reduces_S16x128x48_S16x48 (.inl rfl) rfl (ix2 p q)).trans ?_
  refine Finset.sum_congr rfl fun l _ => congrArg x0 (funext fun a => Fin.ext ?_)
  match a with
  | ⟨0, _⟩ => rfl
  | ⟨1, _⟩ => rfl
  | ⟨2, _⟩ => rfl

/-- For any [1024,128,48] array `A`: the body's sums of block `t` of `A` are block `t` of the row sums of `A`. -/
theorem blockSum_3 (A : S1024x128x48.Idx → EReal) (t : Fin cfg0.N) :
    k0_pay1 (F := Ideal) (((cfg0.win 0).blk t).view.read (Elt Ideal) A) = ((cfg0.win 3).blk t).view.read (Elt Ideal) (poolJ A) := by
  obtain ⟨e0, e1, e2, e3, e4⟩ := idx0_3 t
  funext j
  obtain ⟨p, q, rfl⟩ : ∃ (p : Fin 16) (q : Fin 48), j = ix2 p q := ⟨j 0, j 1, eq_ix2 j⟩
  refine (pay1_apply _ p q).trans ?_
  show (∑ l : Fin 128, A (((cfg0.win 0).blk t).view.emb (ix3 p l q)))
    = ∑ l : Fin 128, A (ix3 (n0 := 1024) (n1 := 128) (n2 := 48) ((((cfg0.win 3).blk t).view.emb (ix2 p q)) 0) l ((((cfg0.win 3).blk t).view.emb (ix2 p q)) 1))
  refine Finset.sum_congr rfl fun l _ => ?_
  refine congrArg A (funext fun a => Fin.ext ?_)
  match a with
  | ⟨0, _⟩ => show win0_0.index t (0 : Fin 3) * 16 + 1 * p.val = win0_3.index t (0 : Fin 2) * 16 + 1 * p.val; omega
  | ⟨1, _⟩ => show win0_0.index t (1 : Fin 3) * 128 + 1 * l.val = l.val; omega
  | ⟨2, _⟩ => show win0_0.index t (2 : Fin 3) * 48 + 1 * q.val = win0_3.index t (1 : Fin 2) * 48 + 1 * q.val; omega

/-- Grid point `t` writes back rows 16t … 16t+15 of the row sums of `main_arg0`. -/
theorem flushed0_3 (c : Dev nD) (t : Fin cfg0.N) :
    (dat0 V c).flushed 3 t = ((cfg0.win 3).blk t).view.read (Elt Ideal) (poolJ (V c main_arg0)) := by
  show (cfg0.win 3).cut (grid0.coords t) ((dat0 V c).after 3 t) = _
  rw [after0_3]
  unfold out0_3
  rw [View.canon_unit_zero hz2]
  simp only [View.ld_unit_zero (S := S16x128x48) hz3]
  exact blockSum_3 (V c main_arg0) t

/-- An index of the result array is in point `t`'s block iff each coordinate is in the block's range on its axis. -/
theorem mem_blk0_3 (t : Fin cfg0.N) (i : S1024x48.Idx) :
    i ∈ ((cfg0.win 3).blk t).view.set ↔ ∀ a : Fin 2, win0_3.index t a * S16x48.size a ≤ (i a).val ∧ (i a).val < win0_3.index t a * S16x48.size a + S16x48.size a := by
  show i ∈ ((View.whole main_v0_0).slice (win0_3.rect t)).set ↔ _
  rw [View.set_slice_whole, Rect.mem_set_unit]
  exact Iff.rfl

/-- Row r lies in the block of point r / 16: the blocks tile the array. -/
theorem covered0_3 (i : S1024x48.Idx) :
    ∃ t : Fin cfg0.N, (cfg0.win 3).flush t = true ∧ i ∈ ((cfg0.win 3).blk t).view.set := by
  have hi0 : (i 0).val < 1024 := (i 0).isLt
  have hi1 : (i 1).val < 48 := (i 1).isLt
  have hN : cfg0.N = 64 := N_0
  refine ⟨⟨(i 0).val / 16, by rw [hN]; omega⟩, flush0_3 _, ?_⟩
  rw [mem_blk0_3]
  obtain ⟨e0, e1, e2, e3, e4⟩ := idx0_3 ⟨(i 0).val / 16, by rw [hN]; omega⟩
  intro a
  match a with
  | ⟨0, _⟩ => show win0_3.index _ (0 : Fin 2) * 16 ≤ (i 0).val ∧ (i 0).val < win0_3.index _ (0 : Fin 2) * 16 + 16; rw [e3]; show (i 0).val / 16 * 16 ≤ (i 0).val ∧ (i 0).val < (i 0).val / 16 * 16 + 16; omega
  | ⟨1, _⟩ => show win0_3.index _ (1 : Fin 2) * 48 ≤ (i 1).val ∧ (i 1).val < win0_3.index _ (1 : Fin 2) * 48 + 48; rw [e4]; omega

/-- The result array after the stage: the row sums of `main_arg0`. -/
theorem final0_3 (c : Dev nD) : (dat0 V c).arrAt 3 cfg0.N = poolJ (V c main_arg0) :=
  (dat0 V c).arrAt_eq_of_cover 3 (poolJ (V c main_arg0)) (fun t _ => flushed0_3 V c t) covered0_3

/-- The body's sum over the sequence axis, read at row `p` and feature `q` of the block. -/
theorem pay2_apply (x0 : Vec Ideal S16x128x1024 .f32) (p : Fin 16) (q : Fin 1024) :
    k0_pay2 (F := Ideal) x0 (ix2 p q) = ∑ l : Fin 128, x0 (ix3 p l q) := by
  unfold k0_pay2
  refine (Ideal.multiReduction_add_single x0 0x00000000#32 reduces_S16x128x1024_S16x1024 (.inl rfl) rfl (ix2 p q)).trans ?_
  refine Finset.sum_congr rfl fun l _ => congrArg x0 (funext fun a => Fin.ext ?_)
  match a with
  | ⟨0, _⟩ => rfl
  | ⟨1, _⟩ => rfl
  | ⟨2, _⟩ => rfl

/-- For any [1024,128,1024] array `A`: the body's sums of block `t` of `A` are block `t` of the row sums of `A`. -/
theorem blockSum_4 (A : S1024x128x1024.Idx → EReal) (t : Fin cfg0.N) :
    k0_pay2 (F := Ideal) (((cfg0.win 1).blk t).view.read (Elt Ideal) A) = ((cfg0.win 4).blk t).view.read (Elt Ideal) (poolW A) := by
  obtain ⟨e0, e1, e2, e3, e4⟩ := idx0_4 t
  funext j
  obtain ⟨p, q, rfl⟩ : ∃ (p : Fin 16) (q : Fin 1024), j = ix2 p q := ⟨j 0, j 1, eq_ix2 j⟩
  refine (pay2_apply _ p q).trans ?_
  show (∑ l : Fin 128, A (((cfg0.win 1).blk t).view.emb (ix3 p l q)))
    = ∑ l : Fin 128, A (ix3 (n0 := 1024) (n1 := 128) (n2 := 1024) ((((cfg0.win 4).blk t).view.emb (ix2 p q)) 0) l ((((cfg0.win 4).blk t).view.emb (ix2 p q)) 1))
  refine Finset.sum_congr rfl fun l _ => ?_
  refine congrArg A (funext fun a => Fin.ext ?_)
  match a with
  | ⟨0, _⟩ => show win0_1.index t (0 : Fin 3) * 16 + 1 * p.val = win0_4.index t (0 : Fin 2) * 16 + 1 * p.val; omega
  | ⟨1, _⟩ => show win0_1.index t (1 : Fin 3) * 128 + 1 * l.val = l.val; omega
  | ⟨2, _⟩ => show win0_1.index t (2 : Fin 3) * 1024 + 1 * q.val = win0_4.index t (1 : Fin 2) * 1024 + 1 * q.val; omega

/-- Grid point `t` writes back rows 16t … 16t+15 of the row sums of `main_arg1`. -/
theorem flushed0_4 (c : Dev nD) (t : Fin cfg0.N) :
    (dat0 V c).flushed 4 t = ((cfg0.win 4).blk t).view.read (Elt Ideal) (poolW (V c main_arg1)) := by
  show (cfg0.win 4).cut (grid0.coords t) ((dat0 V c).after 4 t) = _
  rw [after0_4]
  unfold out0_4
  rw [View.canon_unit_zero hz2]
  simp only [View.ld_unit_zero (S := S16x128x1024) hz3]
  exact blockSum_4 (V c main_arg1) t

/-- An index of the result array is in point `t`'s block iff each coordinate is in the block's range on its axis. -/
theorem mem_blk0_4 (t : Fin cfg0.N) (i : S1024x1024.Idx) :
    i ∈ ((cfg0.win 4).blk t).view.set ↔ ∀ a : Fin 2, win0_4.index t a * S16x1024.size a ≤ (i a).val ∧ (i a).val < win0_4.index t a * S16x1024.size a + S16x1024.size a := by
  show i ∈ ((View.whole main_v0_1).slice (win0_4.rect t)).set ↔ _
  rw [View.set_slice_whole, Rect.mem_set_unit]
  exact Iff.rfl

/-- Row r lies in the block of point r / 16: the blocks tile the array. -/
theorem covered0_4 (i : S1024x1024.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  have hN : cfg0.N = 64 := N_0
  refine ⟨⟨(i 0).val / 16, by rw [hN]; omega⟩, flush0_4 _, ?_⟩
  rw [mem_blk0_4]
  obtain ⟨e0, e1, e2, e3, e4⟩ := idx0_4 ⟨(i 0).val / 16, by rw [hN]; omega⟩
  intro a
  match a with
  | ⟨0, _⟩ => show win0_4.index _ (0 : Fin 2) * 16 ≤ (i 0).val ∧ (i 0).val < win0_4.index _ (0 : Fin 2) * 16 + 16; rw [e3]; show (i 0).val / 16 * 16 ≤ (i 0).val ∧ (i 0).val < (i 0).val / 16 * 16 + 16; omega
  | ⟨1, _⟩ => show win0_4.index _ (1 : Fin 2) * 1024 ≤ (i 1).val ∧ (i 1).val < win0_4.index _ (1 : Fin 2) * 1024 + 1024; rw [e4]; omega

/-- The result array after the stage: the row sums of `main_arg1`. -/
theorem final0_4 (c : Dev nD) : (dat0 V c).arrAt 4 cfg0.N = poolW (V c main_arg1) :=
  (dat0 V c).arrAt_eq_of_cover 4 (poolW (V c main_arg1)) (fun t _ => flushed0_4 V c t) covered0_4

/-- The body's sum over the sequence axis, read at row `p` and feature `q` of the block. -/
theorem pay3_apply (x0 : Vec Ideal S16x128x1024 .f32) (p : Fin 16) (q : Fin 1024) :
    k0_pay3 (F := Ideal) x0 (ix2 p q) = ∑ l : Fin 128, x0 (ix3 p l q) := by
  unfold k0_pay3
  refine (Ideal.multiReduction_add_single x0 0x00000000#32 reduces_S16x128x1024_S16x1024 (.inl rfl) rfl (ix2 p q)).trans ?_
  refine Finset.sum_congr rfl fun l _ => congrArg x0 (funext fun a => Fin.ext ?_)
  match a with
  | ⟨0, _⟩ => rfl
  | ⟨1, _⟩ => rfl
  | ⟨2, _⟩ => rfl

/-- For any [1024,128,1024] array `A`: the body's sums of block `t` of `A` are block `t` of the row sums of `A`. -/
theorem blockSum_5 (A : S1024x128x1024.Idx → EReal) (t : Fin cfg0.N) :
    k0_pay3 (F := Ideal) (((cfg0.win 2).blk t).view.read (Elt Ideal) A) = ((cfg0.win 5).blk t).view.read (Elt Ideal) (poolW A) := by
  obtain ⟨e0, e1, e2, e3, e4⟩ := idx0_5 t
  funext j
  obtain ⟨p, q, rfl⟩ : ∃ (p : Fin 16) (q : Fin 1024), j = ix2 p q := ⟨j 0, j 1, eq_ix2 j⟩
  refine (pay3_apply _ p q).trans ?_
  show (∑ l : Fin 128, A (((cfg0.win 2).blk t).view.emb (ix3 p l q)))
    = ∑ l : Fin 128, A (ix3 (n0 := 1024) (n1 := 128) (n2 := 1024) ((((cfg0.win 5).blk t).view.emb (ix2 p q)) 0) l ((((cfg0.win 5).blk t).view.emb (ix2 p q)) 1))
  refine Finset.sum_congr rfl fun l _ => ?_
  refine congrArg A (funext fun a => Fin.ext ?_)
  match a with
  | ⟨0, _⟩ => show win0_2.index t (0 : Fin 3) * 16 + 1 * p.val = win0_5.index t (0 : Fin 2) * 16 + 1 * p.val; omega
  | ⟨1, _⟩ => show win0_2.index t (1 : Fin 3) * 128 + 1 * l.val = l.val; omega
  | ⟨2, _⟩ => show win0_2.index t (2 : Fin 3) * 1024 + 1 * q.val = win0_5.index t (1 : Fin 2) * 1024 + 1 * q.val; omega

/-- Grid point `t` writes back rows 16t … 16t+15 of the row sums of `main_arg2`. -/
theorem flushed0_5 (c : Dev nD) (t : Fin cfg0.N) :
    (dat0 V c).flushed 5 t = ((cfg0.win 5).blk t).view.read (Elt Ideal) (poolW (V c main_arg2)) := by
  show (cfg0.win 5).cut (grid0.coords t) ((dat0 V c).after 5 t) = _
  rw [after0_5]
  unfold out0_5
  rw [View.canon_unit_zero hz2]
  simp only [View.ld_unit_zero (S := S16x128x1024) hz3]
  exact blockSum_5 (V c main_arg2) t

/-- An index of the result array is in point `t`'s block iff each coordinate is in the block's range on its axis. -/
theorem mem_blk0_5 (t : Fin cfg0.N) (i : S1024x1024.Idx) :
    i ∈ ((cfg0.win 5).blk t).view.set ↔ ∀ a : Fin 2, win0_5.index t a * S16x1024.size a ≤ (i a).val ∧ (i a).val < win0_5.index t a * S16x1024.size a + S16x1024.size a := by
  show i ∈ ((View.whole main_v0_2).slice (win0_5.rect t)).set ↔ _
  rw [View.set_slice_whole, Rect.mem_set_unit]
  exact Iff.rfl

/-- Row r lies in the block of point r / 16: the blocks tile the array. -/
theorem covered0_5 (i : S1024x1024.Idx) :
    ∃ t : Fin cfg0.N, (cfg0.win 5).flush t = true ∧ i ∈ ((cfg0.win 5).blk t).view.set := by
  have hi0 : (i 0).val < 1024 := (i 0).isLt
  have hi1 : (i 1).val < 1024 := (i 1).isLt
  have hN : cfg0.N = 64 := N_0
  refine ⟨⟨(i 0).val / 16, by rw [hN]; omega⟩, flush0_5 _, ?_⟩
  rw [mem_blk0_5]
  obtain ⟨e0, e1, e2, e3, e4⟩ := idx0_5 ⟨(i 0).val / 16, by rw [hN]; omega⟩
  intro a
  match a with
  | ⟨0, _⟩ => show win0_5.index _ (0 : Fin 2) * 16 ≤ (i 0).val ∧ (i 0).val < win0_5.index _ (0 : Fin 2) * 16 + 16; rw [e3]; show (i 0).val / 16 * 16 ≤ (i 0).val ∧ (i 0).val < (i 0).val / 16 * 16 + 16; omega
  | ⟨1, _⟩ => show win0_5.index _ (1 : Fin 2) * 1024 ≤ (i 1).val ∧ (i 1).val < win0_5.index _ (1 : Fin 2) * 1024 + 1024; rw [e4]; omega

/-- The result array after the stage: the row sums of `main_arg2`. -/
theorem final0_5 (c : Dev nD) : (dat0 V c).arrAt 5 cfg0.N = poolW (V c main_arg2) :=
  (dat0 V c).arrAt_eq_of_cover 5 (poolW (V c main_arg2)) (fun t _ => flushed0_5 V c t) covered0_5

end Cert.KernelIdeal.Val

end
-- ==== Proof.ValueR1.lean ====
/-
  What the dense stage leaves in its result array, at the exact reals: entry (i, j) is
  max(Σ_k features(i, k) · weight(k, j) + bias(0, j), 0), the sum over the 2096 joined features. Point t of the grid
  reads batch rows 128t … 128t+127 of the features, the whole weight and the bias row, and writes back the same rows
  of the result; the blocks tile the result array, so it ends as ONE function of the stage's three input arrays.
  Stated at an arbitrary valuation `V` of the buffers at the stage's entry.
-/
import proofs.«161936_j50259707298335_1_alg».proof.Proof.FrameKI.Region1
import proofs.«161936_j50259707298335_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzz : (![0, 0] : Fin 2 → Nat) = fun _ => 0 := funext fun a => by fin_cases a <;> rfl

/-- The block index maps over the grid: point `t` holds block `t` of the batch axis of the features and of the result;
    the weight and the bias row are one block each. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The matrix unit's product into a zero accumulator, read at (p, q): the sum over the contracted axis. -/
theorem matmul_block_apply (x0 : FVec Ideal S128x2096 .bf16) (x1 : FVec Ideal S2096x1024 .bf16) (p : Fin 128) (q : Fin 1024) :
    matmul (F := Ideal) dot_S128x2096_S2096x1024_S128x1024_1_0_0_1_n_n none x0 x1 (constant S128x1024 .f32 0x00000000#32) (ix2 p q)
      = ∑ k : Fin 2096, x0 (ix2 p k) * x1 (ix2 k q) := by
  simp only [matmul]
  rw [Ideal.matmul_constant_zero_apply, ← Equiv.sum_comp (ValueIdx.contrEquiv1 dot_S128x2096_S2096x1024_S128x1024_1_0_0_1_n_n 2096 rfl rfl).symm]
  refine Finset.sum_congr rfl fun k _ => ?_
  have hk := ValueIdx.contrEquiv1_symm_val dot_S128x2096_S2096x1024_S128x1024_1_0_0_1_n_n 2096 rfl rfl k
  have el : dot_S128x2096_S2096x1024_S128x1024_1_0_0_1_n_n.lhsIdx (ix2 p q) ((ValueIdx.contrEquiv1 dot_S128x2096_S2096x1024_S128x1024_1_0_0_1_n_n 2096 rfl rfl).symm k) = ix2 p k := funext fun a => Fin.ext (by
    match a with
    | ⟨0, _⟩ =>
      show (dot_S128x2096_S2096x1024_S128x1024_1_0_0_1_n_n.lhsIdx (ix2 p q) _ 0).val = p.val
      unfold DotDims.lhsIdx
      rw [dif_neg (show ¬(0 : Fin S128x2096.rank) ∈ dot_S128x2096_S2096x1024_S128x1024_1_0_0_1_n_n.lhsBatch by decide), dif_pos (show (0 : Fin S128x2096.rank) ∈ dot_S128x2096_S2096x1024_S128x1024_1_0_0_1_n_n.lhsNonContracting by decide)]
      rfl
    | ⟨1, _⟩ => exact (dot_S128x2096_S2096x1024_S128x1024_1_0_0_1_n_n.lhsIdx_val_of_single rfl (ix2 p q) _).trans hk)
  have er : dot_S128x2096_S2096x1024_S128x1024_1_0_0_1_n_n.rhsIdx (ix2 p q) ((ValueIdx.contrEquiv1 dot_S128x2096_S2096x1024_S128x1024_1_0_0_1_n_n 2096 rfl rfl).symm k) = ix2 k q := funext fun a => Fin.ext (by
    match a with
    | ⟨0, _⟩ => exact (dot_S128x2096_S2096x1024_S128x1024_1_0_0_1_n_n.rhsIdx_val_of_single rfl (ix2 p q) _).trans hk
    | ⟨1, _⟩ =>
      show (dot_S128x2096_S2096x1024_S128x1024_1_0_0_1_n_n.rhsIdx (ix2 p q) _ 1).val = q.val
      unfold DotDims.rhsIdx
      rw [dif_neg (show ¬(1 : Fin S2096x1024.rank) ∈ dot_S128x2096_S2096x1024_S128x1024_1_0_0_1_n_n.rhsBatch by decide), dif_pos (show (1 : Fin S2096x1024.rank) ∈ dot_S128x2096_S2096x1024_S128x1024_1_0_0_1_n_n.rhsNonContracting by decide)]
      rfl)
  rw [el, er]

/-- The body's value at row `p`, column `q` of the block: the features' row times the weight's column, plus the bias, clamped at zero. -/
theorem pay_apply (x0 : Vec Ideal S128x2096 .bf16) (x1 : Vec Ideal S2096x1024 .bf16) (x2 : Vec Ideal S1x1024 .f32) (p : Fin 128) (q : Fin 1024) :
    k1_pay1 (F := Ideal) x0 x1 x2 (ix2 p q)
      = max ((∑ k : Fin 2096, (x0 (ix2 p k) : EReal) * (x1 (ix2 k q) : EReal)) + x2 (ix2 (0 : Fin 1) q)) (Ideal.ofBits .f32 0x00000000#32) := by
  unfold k1_pay1
  rw [shapeCast_self, shapeCast_self, shapeCast_self]
  show max ((matmul (F := Ideal) dot_S128x2096_S2096x1024_S128x1024_1_0_0_1_n_n none x0 x1 (constant S128x1024 .f32 0x00000000#32) (ix2 p q))
      + broadcastTo S128x1024 x2 broadcasts_S1x1024_S128x1024 (ix2 p q)) (Ideal.ofBits .f32 0x00000000#32) = _
  rw [matmul_block_apply, broadcastTo_1b_ab_apply]

set_option maxHeartbeats 1000000 in
/-- For any features `A`, weight `Wt` and bias row `Bv`: the body's value on block `t` of the features, the whole weight and
    the bias row is block `t` of the dense layer of `A`, `Wt`, `Bv`. -/
theorem blockDense (A : S1024x2096.Idx → EReal) (Wt : S2096x1024.Idx → EReal) (Bv : S1x1024.Idx → EReal) (t : Fin cfg1.N) :
    k1_pay1 (F := Ideal) (((cfg1.win 0).blk t).view.read (Elt Ideal) A) (((cfg1.win 1).blk t).view.read (Elt Ideal) Wt)
        (((cfg1.win 2).blk t).view.read (Elt Ideal) Bv)
      = ((cfg1.win 3).blk t).view.read (Elt Ideal) (dense A Wt Bv) := by
  obtain ⟨e0, e1, e2, e3, e4, e5, e6, e7⟩ := idx1 t
  funext j
  obtain ⟨p, q, rfl⟩ : ∃ (p : Fin 128) (q : Fin 1024), j = ix2 p q := ⟨j 0, j 1, eq_ix2 j⟩
  refine (pay_apply _ _ _ p q).trans ?_
  show max ((∑ k : Fin 2096, A (((cfg1.win 0).blk t).view.emb (ix2 p k)) * Wt (((cfg1.win 1).blk t).view.emb (ix2 k q)))
        + Bv (((cfg1.win 2).blk t).view.emb (ix2 (0 : Fin 1) q))) (Ideal.ofBits .f32 0x00000000#32)
    = max ((∑ k : Fin 2096, A (ix2 (n0 := 1024) (n1 := 2096) ((((cfg1.win 3).blk t).view.emb (ix2 p q)) 0) k)
          * Wt (ix2 (n0 := 2096) (n1 := 1024) k ((((cfg1.win 3).blk t).view.emb (ix2 p q)) 1)))
        + Bv (ix2 (n0 := 1) (n1 := 1024) 0 ((((cfg1.win 3).blk t).view.emb (ix2 p q)) 1))) (Ideal.ofBits .f32 0x00000000#32)
  have hb : ((cfg1.win 2).blk t).view.emb (ix2 (0 : Fin 1) q) = ix2 (n0 := 1) (n1 := 1024) 0 ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega
  have h0 : ∀ k : Fin 2096, ((cfg1.win 0).blk t).view.emb (ix2 p k) = ix2 (n0 := 1024) (n1 := 2096) ((((cfg1.win 3).blk t).view.emb (ix2 p q)) 0) k := by
    intro k; funext a; apply Fin.ext
    match a with
    | ⟨0, _⟩ => show win1_0.index t (0 : Fin 2) * 128 + 1 * p.val = win1_3.index t (0 : Fin 2) * 128 + 1 * p.val; omega
    | ⟨1, _⟩ => show win1_0.index t (1 : Fin 2) * 2096 + 1 * k.val = k.val; omega
  have h1 : ∀ k : Fin 2096, ((cfg1.win 1).blk t).view.emb (ix2 k q) = ix2 (n0 := 2096) (n1 := 1024) k ((((cfg1.win 3).blk t).view.emb (ix2 p q)) 1) := by
    intro k; funext a; apply Fin.ext
    match a with
    | ⟨0, _⟩ => show win1_1.index t (0 : Fin 2) * 2096 + 1 * k.val = k.val; omega
    | ⟨1, _⟩ => show win1_1.index t (1 : Fin 2) * 1024 + 1 * q.val = win1_3.index t (1 : Fin 2) * 1024 + 1 * q.val; omega
  rw [hb]
  exact congrArg₂ max (congrArg₂ (· + ·) (Finset.sum_congr rfl fun k _ => by rw [h0 k, h1 k]) rfl) rfl

/-- Grid point `t` writes back rows 128t … 128t+127 of the dense layer of the three arrays as the stage finds them. -/
theorem flushed1_3 (c : Dev nD) (t : Fin cfg1.N) :
    (dat1 V c).flushed 3 t = ((cfg1.win 3).blk t).view.read (Elt Ideal) (dense (V c main_v29) (V c main_v31) (V c main_v32)) := by
  show (cfg1.win 3).cut (grid1.coords t) ((dat1 V c).after 3 t) = _
  rw [after1_3]
  unfold out1_3
  rw [View.canon_unit_zero hzz]
  simp only [View.ld_unit_zero (S := S128x2096) hzz, View.ld_unit_zero (S := S2096x1024) hzz, View.ld_unit_zero (S := S1x1024) hzz]
  exact blockDense (V c main_v29) (V c main_v31) (V c main_v32) t

/-- An index of the result array is in point `t`'s block iff each coordinate is in the block's range on its axis. -/
theorem mem_blk1_3 (t : Fin cfg1.N) (i : S1024x1024.Idx) :
    i ∈ ((cfg1.win 3).blk t).view.set ↔ ∀ a : Fin 2, win1_3.index t a * S128x1024.size a ≤ (i a).val ∧ (i a).val < win1_3.index t a * S128x1024.size a + S128x1024.size a := by
  show i ∈ ((View.whole main_v33).slice (win1_3.rect t)).set ↔ _
  rw [View.set_slice_whole, Rect.mem_set_unit]
  exact Iff.rfl

/-- Row r lies in the block of point r / 128: the blocks tile the array. -/
theorem covered1_3 (i : S1024x1024.Idx) :
    ∃ t : Fin cfg1.N, (cfg1.win 3).flush t = true ∧ i ∈ ((cfg1.win 3).blk t).view.set := by
  have hi0 : (i 0).val < 1024 := (i 0).isLt
  have hi1 : (i 1).val < 1024 := (i 1).isLt
  have hN : cfg1.N = 8 := N_1
  refine ⟨⟨(i 0).val / 128, by rw [hN]; omega⟩, flush1_3 _, ?_⟩
  rw [mem_blk1_3]
  obtain ⟨e0, e1, e2, e3, e4, e5, e6, e7⟩ := idx1 ⟨(i 0).val / 128, by rw [hN]; omega⟩
  intro a
  match a with
  | ⟨0, _⟩ => show win1_3.index _ (0 : Fin 2) * 128 ≤ (i 0).val ∧ (i 0).val < win1_3.index _ (0 : Fin 2) * 128 + 128; rw [e6]; show (i 0).val / 128 * 128 ≤ (i 0).val ∧ (i 0).val < (i 0).val / 128 * 128 + 128; omega
  | ⟨1, _⟩ => show win1_3.index _ (1 : Fin 2) * 1024 ≤ (i 1).val ∧ (i 1).val < win1_3.index _ (1 : Fin 2) * 1024 + 1024; rw [e7]; omega

/-- The result array after the stage: the dense layer of the three arrays as the stage finds them. -/
theorem final1_3 (c : Dev nD) : (dat1 V c).arrAt 3 cfg1.N = dense (V c main_v29) (V c main_v31) (V c main_v32) :=
  (dat1 V c).arrAt_eq_of_cover 3 (dense (V c main_v29) (V c main_v31) (V c main_v32)) (fun t _ => flushed1_3 V c t) covered1_3

end Cert.KernelIdeal.Val

end
-- ==== Proof.ValueHost.lean ====
/-
  The host line between the two stages, at the exact reals. From the three arrays of row sums s it forms, for each, the
  masked mean s / max(n, 1), where n counts the batch rows whose total over the features is not zero; joins the three
  along the feature axis into the [1024,2096] features; transposes the weight; and lays the bias out as a row. The casts
  to the narrow float format change nothing at the exact reals. Then the dense stage of those three arrays is the
  dense layer G of the joined features, the untransposed weight and the bias vector.
-/
import proofs.«161936_j50259707298335_1_alg».proof.Proof.FrameKI.Run
import proofs.«161936_j50259707298335_1_alg».proof.Proof.ValueR0
import proofs.«161936_j50259707298335_1_alg».proof.Proof.ValueR1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The head of the tail of a vector literal is the head of what follows its first entry. -/
theorem head_tail_cons {α : Type} {n : ℕ} (x : α) (u : Fin (n + 1) → α) :
    Matrix.vecHead (Matrix.vecTail (Matrix.vecCons x u)) = Matrix.vecHead u := rfl

/-- Three arrays joined along an axis depend only on the three arrays. -/
theorem concat3_congr {α : Type} {t : Shape} {a : Fin t.rank} {s0 s1 s2 : Shape} {x0 y0 : s0.Idx → α} {x1 y1 : s1.Idx → α}
    {x2 y2 : s2.Idx → α} (h : Shape.Concatenates [s0, s1, s2] t a) (e0 : x0 = y0) (e1 : x1 = y1) (e2 : x2 = y2) :
    concatenate t a [⟨s0, x0⟩, ⟨s1, x1⟩, ⟨s2, x2⟩] h = concatenate t a [⟨s0, y0⟩, ⟨s1, y1⟩, ⟨s2, y2⟩] h := by
  subst e0 e1 e2; rfl

/-- What the host line leaves in the features buffer, from any contents `W` before it. -/
theorem host_v29 (W : Valuation τ sig (Elt Ideal)) :
    StableHlo.after hostOps1 W (Proc.devRef .tc main_v29)
      = truncf (F := Ideal) .bf16 (feats (W (Proc.devRef .tc main_v0_0)) (W (Proc.devRef .tc main_v0_1)) (W (Proc.devRef .tc main_v0_2))) bitsLt_bf16_f32 := by
  unfold feats mmeanJ mmeanW
  after_results_simp
  dsimp only [Matrix.cons_val_zero, Matrix.cons_val_one, Matrix.cons_val_two, Matrix.head_cons, head_tail_cons]
  refine congrArg (truncf (F := Ideal) .bf16 · bitsLt_bf16_f32) (concat3_congr _ ?_ ?_ ?_)
  all_goals (after_results_simp <;> rfl)
/-- … in the transposed weight's buffer, -/
theorem host_v31 (W : Valuation τ sig (Elt Ideal)) :
    StableHlo.after hostOps1 W (Proc.devRef .tc main_v31)
      = truncf (F := Ideal) .bf16 (transpose S2096x1024 [1, 0] (W (Proc.devRef .tc main_arg3) : FVec Ideal S1024x2096 .f32) transposes_S1024x2096_S2096x1024_1_0) bitsLt_bf16_f32 := by
  after_results_simp <;> rfl
/-- … and in the bias row's. -/
theorem host_v32 (W : Valuation τ sig (Elt Ideal)) :
    StableHlo.after hostOps1 W (Proc.devRef .tc main_v32)
      = shapeCast S1x1024 (W (Proc.devRef .tc main_arg4) : FVec Ideal S1024 .f32) shapeCasts_S1024_S1x1024 := by
  after_results_simp <;> rfl

/-- The dense stage of the narrowed features, the narrowed transposed weight and the bias row is `G` of the features, the
    weight and the bias: the narrowing is the identity, the transpose swaps the weight's coordinates, the row's one row is the vector. -/
theorem dense_eq_G (H : FVec Ideal S1024x2096 .f32) (w : FVec Ideal S1024x2096 .f32) (b : FVec Ideal S1024 .f32) :
    dense (truncf (F := Ideal) .bf16 H bitsLt_bf16_f32) (truncf (F := Ideal) .bf16 (transpose S2096x1024 [1, 0] w transposes_S1024x2096_S2096x1024_1_0) bitsLt_bf16_f32)
        (shapeCast S1x1024 b shapeCasts_S1024_S1x1024) = G H w b := by
  funext i
  obtain ⟨p, q, rfl⟩ : ∃ (p : Fin 1024) (q : Fin 1024), i = ix2 p q := ⟨i 0, i 1, eq_ix2 i⟩
  unfold dense G
  have hb : shapeCast S1x1024 b shapeCasts_S1024_S1x1024 (ix2 (0 : Fin 1) q) = b (ix1 q) := shapeCast_a_1a_apply b _ 0 q
  have hw : ∀ k : Fin 2096, transpose S2096x1024 [1, 0] w transposes_S1024x2096_S2096x1024_1_0 (ix2 k q) = w (ix2 q k) :=
    fun k => transpose_ix2_apply w _ k q
  show max ((∑ k : Fin 2096, H (ix2 p k) * transpose S2096x1024 [1, 0] w transposes_S1024x2096_S2096x1024_1_0 (ix2 k q))
      + shapeCast S1x1024 b shapeCasts_S1024_S1x1024 (ix2 (0 : Fin 1) q)) _ = max ((∑ k : Fin 2096, H (ix2 p k) * w (ix2 q k)) + b (ix1 q)) _
  rw [hb]
  exact congrArg₂ max (congrArg₂ (· + ·) (Finset.sum_congr rfl fun k _ => by rw [hw k]) rfl) rfl

variable (m : (ℓ : Loc nD τ sig) → Buf (Elt Ideal) ℓ) (ρ : Dev nD → PrngReg)

/-- The result array after the whole run, as ONE function of the five argument arrays: the dense layer of the joined
    masked means of the row sums, the weight and the bias. -/
theorem result_value (c : Dev nD) :
    (dat1 (VC m ρ) c).arrAt 3 cfg1.N
      = G (feats (poolJ (m ((c : Thread nD τ).loc main_arg0))) (poolW (m ((c : Thread nD τ).loc main_arg1))) (poolW (m ((c : Thread nD τ).loc main_arg2))))
          (m ((c : Thread nD τ).loc main_arg3)) (m ((c : Thread nD τ).loc main_arg4)) := by
  have s0 : WB m ρ c (Proc.devRef .tc main_v0_0) = poolJ (m ((c : Thread nD τ).loc main_arg0)) := (WB_arr m ρ c 3).trans (final0_3 (VA m ρ) c)
  have s1 : WB m ρ c (Proc.devRef .tc main_v0_1) = poolW (m ((c : Thread nD τ).loc main_arg1)) := (WB_arr m ρ c 4).trans (final0_4 (VA m ρ) c)
  have s2 : WB m ρ c (Proc.devRef .tc main_v0_2) = poolW (m ((c : Thread nD τ).loc main_arg2)) := (WB_arr m ρ c 5).trans (final0_5 (VA m ρ) c)
  have a3 : WB m ρ c (Proc.devRef .tc main_arg3) = m ((c : Thread nD τ).loc main_arg3) := WB_of_ne m ρ c main_arg3 (by decide)
  have a4 : WB m ρ c (Proc.devRef .tc main_arg4) = m ((c : Thread nD τ).loc main_arg4) := WB_of_ne m ρ c main_arg4 (by decide)
  have e29 : VC m ρ c main_v29 = truncf (F := Ideal) .bf16 (feats (poolJ (m ((c : Thread nD τ).loc main_arg0))) (poolW (m ((c : Thread nD τ).loc main_arg1))) (poolW (m ((c : Thread nD τ).loc main_arg2)))) bitsLt_bf16_f32 := by
    rw [← s0, ← s1, ← s2]; exact host_v29 (WB m ρ c)
  have e31 : VC m ρ c main_v31 = truncf (F := Ideal) .bf16 (transpose S2096x1024 [1, 0] (m ((c : Thread nD τ).loc main_arg3) : FVec Ideal S1024x2096 .f32) transposes_S1024x2096_S2096x1024_1_0) bitsLt_bf16_f32 := by
    rw [← a3]; exact host_v31 (WB m ρ c)
  have e32 : VC m ρ c main_v32 = shapeCast S1x1024 (m ((c : Thread nD τ).loc main_arg4) : FVec Ideal S1024 .f32) shapeCasts_S1024_S1x1024 := by
    rw [← a4]; exact host_v32 (WB m ρ c)
  rw [final1_3, e29, e31, e32]
  exact dense_eq_G _ _ _

end Cert.KernelIdeal.Val

end
-- ==== Proof.LibTrailingSum.lean ====
/-
  A host sum over the two trailing axes of a rank-3 array, read at a leading coordinate: the initial value plus the
  double sum over the last axis and the middle axis. Beside it, a rank-3 index set as the product of its three
  coordinate ranges, and the sum over it as the triple sum. General in the three extents.
-/
import Idealize.ShloMosaic.PureOps.Ideal.Laws
import Idealize.ShloMosaic.Lib.ValueIdx

noncomputable section

open scoped BigOperators

namespace Idealize.ShloMosaic.TrailingSum

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Of a rank-3 shape's axes, the one kept when the two trailing ones are reduced is the leading one. -/
theorem kept_trailing {B L D : Nat} : (⟨3, ![B, L, D]⟩ : Shape).kept [1, 2] = [0] := rfl

/-- The index left after the two trailing coordinates are dropped has the leading coordinate. -/
theorem drop_trailing_val {B L D : Nat} (h : (⟨3, ![B, L, D]⟩ : Shape).ReducesTo [1, 2] ⟨1, ![B]⟩)
    (i : (⟨3, ![B, L, D]⟩ : Shape).Idx) : (h.drop i 0).val = (i 0).val := by
  have hk : (⟨3, ![B, L, D]⟩ : Shape).kept [1, 2] = [0] := kept_trailing
  have hget : ∀ (ls : List (Fin 3)) (e : ls = [0]) (hl : (0 : ℕ) < ls.length), ls[(0 : ℕ)] = 0 := by
    intro ls e hl; subst e; rfl
  exact Shape.ReducesTo.drop_apply_val_of_eq h i 0 0 (by rw [hk]; exact Nat.zero_lt_one) (hget _ hk _)

/-- Dropping the two trailing coordinates of (a, l, d) leaves the index (b) exactly when a = b. -/
theorem drop_trailing_eq_iff {B L D : Nat} (h : (⟨3, ![B, L, D]⟩ : Shape).ReducesTo [1, 2] ⟨1, ![B]⟩)
    (a b : Fin B) (l : Fin L) (d : Fin D) : h.drop (ix3 a l d) = ix1 b ↔ a = b := by
  constructor
  · intro e
    have e0 := congrArg (fun f : (⟨1, ![B]⟩ : Shape).Idx => (f 0).val) e
    exact Fin.ext ((drop_trailing_val h (ix3 a l d)).symm.trans e0)
  · rintro rfl
    funext k
    match k with
    | ⟨0, _⟩ => exact Fin.ext (drop_trailing_val h (ix3 a l d))

/-- The host's sum over the two trailing axes, at the leading coordinate `b`: the initial value plus the sum over the
    last axis of the sums over the middle axis. Addition on the extended reals is commutative and associative, so no
    finiteness is asked. -/
theorem hostReduceAdd_trailing {B L D : Nat} (h : (⟨3, ![B, L, D]⟩ : Shape).ReducesTo [1, 2] ⟨1, ![B]⟩)
    (x : (⟨3, ![B, L, D]⟩ : Shape).Idx → EReal) (init : EReal) (b : Fin B) :
    Ideal.hostReduceAdd h x init (ix1 b) = init + ∑ d : Fin D, ∑ l : Fin L, x (ix3 b l d) := by
  unfold Ideal.hostReduceAdd
  refine congrArg (init + ·) ?_
  rw [Finset.sum_filter, sum_idx3]
  calc ∑ a : Fin B, ∑ l : Fin L, ∑ d : Fin D, (if h.drop (ix3 a l d) = ix1 b then x (ix3 a l d) else 0)
      = ∑ a : Fin B, (if a = b then ∑ l : Fin L, ∑ d : Fin D, x (ix3 a l d) else 0) := by
        refine Finset.sum_congr rfl fun a _ => ?_
        by_cases hab : a = b
        · rw [if_pos hab]
          exact Finset.sum_congr rfl fun l _ => Finset.sum_congr rfl fun d _ => if_pos ((drop_trailing_eq_iff h a b l d).mpr hab)
        · rw [if_neg hab]
          exact Finset.sum_eq_zero fun l _ => Finset.sum_eq_zero fun d _ => if_neg (fun e => hab ((drop_trailing_eq_iff h a b l d).mp e))
    _ = ∑ l : Fin L, ∑ d : Fin D, x (ix3 b l d) := by
        rw [Finset.sum_ite_eq' Finset.univ b, if_pos (Finset.mem_univ b)]
    _ = ∑ d : Fin D, ∑ l : Fin L, x (ix3 b l d) := Finset.sum_comm

end Idealize.ShloMosaic.TrailingSum

end
-- ==== Proof.RefBridge.lean ====
/-
  The reference, at the exact reals, is the dense layer G of the joined masked means of the row sums. Its sum over the
  sequence axis is the row sum (the zero it starts from adds nothing); its total over the sequence and feature axes,
  taken at once, is the total over the features of the row sums (a sum over a product of ranges is the iterated sum, in
  either order: addition on the extended reals is commutative and associative, so nothing is asked of the inputs); from
  there on the counting, the division and the joining are the same operations applied to equal arrays. The product with
  the transposed weight read at (i, j) contracts the weight's second axis, and the bias broadcast twice is the vector at j.
-/
import proofs.«161936_j50259707298335_1_alg».proof.Proof.RefRead
import proofs.«161936_j50259707298335_1_alg».proof.Proof.Spec
import proofs.«161936_j50259707298335_1_alg».proof.Proof.LibTrailingSum

noncomputable section

namespace Cert.ReferenceIdeal.RefValue

open Cert.ReferenceIdeal Cert.ReferenceIdeal.Gen Cert.ReferenceIdeal.Read
open Idealize.ShloMosaic Idealize.ShloMosaic.ValueIdx Idealize.ShloMosaic.TrailingSum
open Cert.KernelIdeal.Val (poolJ poolW mmeanJ mmeanW feats G)

/-! ## The sums over the sequence axis are the row sums -/

theorem sum0 (x0 : S1024x128x48.Idx → EReal) : val_main_v6 (F := Ideal) x0 = poolJ x0 := by
  funext i
  rw [val_main_v6_apply, val_main_cst_1_apply]
  show Ideal.ofBits .f32 0x00000000#32 + _ = _
  rw [Ideal.ofBits_zero_f32, zero_add]
  unfold poolJ
  refine Finset.sum_congr rfl fun l _ => congrArg x0 (funext fun a => Fin.ext ?_)
  match a with
  | ⟨0, _⟩ => rfl
  | ⟨1, _⟩ => rfl
  | ⟨2, _⟩ => rfl

theorem sum1 (x1 : S1024x128x1024.Idx → EReal) : val_main_v16 (F := Ideal) x1 = poolW x1 := by
  funext i
  rw [val_main_v16_apply, val_main_cst_6_apply]
  show Ideal.ofBits .f32 0x00000000#32 + _ = _
  rw [Ideal.ofBits_zero_f32, zero_add]
  unfold poolW
  refine Finset.sum_congr rfl fun l _ => congrArg x1 (funext fun a => Fin.ext ?_)
  match a with
  | ⟨0, _⟩ => rfl
  | ⟨1, _⟩ => rfl
  | ⟨2, _⟩ => rfl

theorem sum2 (x2 : S1024x128x1024.Idx → EReal) : val_main_v26 (F := Ideal) x2 = poolW x2 := by
  funext i
  rw [val_main_v26_apply, val_main_cst_11_apply]
  show Ideal.ofBits .f32 0x00000000#32 + _ = _
  rw [Ideal.ofBits_zero_f32, zero_add]
  unfold poolW
  refine Finset.sum_congr rfl fun l _ => congrArg x2 (funext fun a => Fin.ext ?_)
  match a with
  | ⟨0, _⟩ => rfl
  | ⟨1, _⟩ => rfl
  | ⟨2, _⟩ => rfl

/-! ## The totals over both trailing axes are the totals of the row sums -/

theorem tot0 (x0 : S1024x128x48.Idx → EReal) :
    val_main_v0 (F := Ideal) x0
      = Host.reduceAdd (F := Ideal) (poolJ x0) (constant (F := Ideal) Cert.KernelIdeal.S_ .f32 0x00000000#32) Cert.KernelIdeal.Gen.reducesTo_S1024x48_S1024_d1 Cert.KernelIdeal.Gen.h_S_ := by
  funext j
  obtain ⟨b, rfl⟩ : ∃ b : Fin 1024, j = ix1 b := ⟨j 0, eq_ix1 j⟩
  unfold val_main_v0
  simp only [Host.reduceAdd, Ideal.hostReduceAdd_def]
  rw [hostReduceAdd_trailing, Ideal.hostReduceAdd_single Cert.KernelIdeal.Gen.reducesTo_S1024x48_S1024_d1 (by decide)]
  refine congrArg₂ (· + ·) rfl (Finset.sum_congr rfl fun d _ => ?_)
  unfold poolJ
  refine Finset.sum_congr rfl fun l _ => congrArg x0 (funext fun a => Fin.ext ?_)
  match a with
  | ⟨0, _⟩ => rfl
  | ⟨1, _⟩ => rfl
  | ⟨2, _⟩ => rfl

theorem tot1 (x1 : S1024x128x1024.Idx → EReal) :
    val_main_v10 (F := Ideal) x1
      = Host.reduceAdd (F := Ideal) (poolW x1) (constant (F := Ideal) Cert.KernelIdeal.S_ .f32 0x00000000#32) Cert.KernelIdeal.Gen.reducesTo_S1024x1024_S1024_d1 Cert.KernelIdeal.Gen.h_S_ := by
  funext j
  obtain ⟨b, rfl⟩ : ∃ b : Fin 1024, j = ix1 b := ⟨j 0, eq_ix1 j⟩
  unfold val_main_v10
  simp only [Host.reduceAdd, Ideal.hostReduceAdd_def]
  rw [hostReduceAdd_trailing, Ideal.hostReduceAdd_single Cert.KernelIdeal.Gen.reducesTo_S1024x1024_S1024_d1 (by decide)]
  refine congrArg₂ (· + ·) rfl (Finset.sum_congr rfl fun d _ => ?_)
  unfold poolW
  refine Finset.sum_congr rfl fun l _ => congrArg x1 (funext fun a => Fin.ext ?_)
  match a with
  | ⟨0, _⟩ => rfl
  | ⟨1, _⟩ => rfl
  | ⟨2, _⟩ => rfl

theorem tot2 (x2 : S1024x128x1024.Idx → EReal) :
    val_main_v20 (F := Ideal) x2
      = Host.reduceAdd (F := Ideal) (poolW x2) (constant (F := Ideal) Cert.KernelIdeal.S_ .f32 0x00000000#32) Cert.KernelIdeal.Gen.reducesTo_S1024x1024_S1024_d1 Cert.KernelIdeal.Gen.h_S_ := by
  funext j
  obtain ⟨b, rfl⟩ : ∃ b : Fin 1024, j = ix1 b := ⟨j 0, eq_ix1 j⟩
  unfold val_main_v20
  simp only [Host.reduceAdd, Ideal.hostReduceAdd_def]
  rw [hostReduceAdd_trailing, Ideal.hostReduceAdd_single Cert.KernelIdeal.Gen.reducesTo_S1024x1024_S1024_d1 (by decide)]
  refine congrArg₂ (· + ·) rfl (Finset.sum_congr rfl fun d _ => ?_)
  unfold poolW
  refine Finset.sum_congr rfl fun l _ => congrArg x2 (funext fun a => Fin.ext ?_)
  match a with
  | ⟨0, _⟩ => rfl
  | ⟨1, _⟩ => rfl
  | ⟨2, _⟩ => rfl

/-! ## The masked means and the joined features -/

theorem mean0 (x0 : S1024x128x48.Idx → EReal) : val_main_v9 (F := Ideal) x0 = mmeanJ (poolJ x0) := by
  unfold val_main_v9 val_main_v8 val_main_v7 val_main_v5 val_main_v4 val_main_v3 val_main_v2
  rw [sum0, tot0]
  rfl
theorem mean1 (x1 : S1024x128x1024.Idx → EReal) : val_main_v19 (F := Ideal) x1 = mmeanW (poolW x1) := by
  unfold val_main_v19 val_main_v18 val_main_v17 val_main_v15 val_main_v14 val_main_v13 val_main_v12
  rw [sum1, tot1]
  rfl
theorem mean2 (x2 : S1024x128x1024.Idx → EReal) : val_main_v29 (F := Ideal) x2 = mmeanW (poolW x2) := by
  unfold val_main_v29 val_main_v28 val_main_v27 val_main_v25 val_main_v24 val_main_v23 val_main_v22
  rw [sum2, tot2]
  rfl

theorem feats_ref (x0 : S1024x128x48.Idx → EReal) (x1 x2 : S1024x128x1024.Idx → EReal) :
    val_main_v30 (F := Ideal) x0 x1 x2 = feats (poolJ x0) (poolW x1) (poolW x2) := by
  unfold val_main_v30
  rw [mean0, mean1, mean2]
  rfl

/-! ## The result -/

/-- The reference's result is the dense layer `G` of the joined masked means of the row sums, the weight and the bias. -/
theorem ref_is_G (x0 : S1024x128x48.Idx → EReal) (x1 x2 : S1024x128x1024.Idx → EReal) (x3 : S1024x2096.Idx → EReal) (x4 : S1024.Idx → EReal) :
    val_main_v36 (F := Ideal) x0 x1 x2 x3 x4 = G (feats (poolJ x0) (poolW x1) (poolW x2)) x3 x4 := by
  funext i
  obtain ⟨p, q, rfl⟩ : ∃ (p : Fin 1024) (q : Fin 1024), i = ix2 p q := ⟨i 0, i 1, eq_ix2 i⟩
  rw [val_main_v36_apply, val_main_v35_apply, val_main_v32_apply, val_main_v34_apply, val_main_v33_apply,
    val_main_call0_v0_apply, val_main_call0_cst_apply, feats_ref]
  unfold G
  show max ((∑ k : Fin 2096, feats (poolJ x0) (poolW x1) (poolW x2) (lidx_main_v32 (ix2 p q) k) * val_main_v31 (F := Ideal) x3 (ridx_main_v32 (ix2 p q) k))
      + x4 (idx_main_v33 (idx_main_v34 (ix2 p q)))) (Ideal.ofBits .f32 0x00000000#32)
    = max ((∑ k : Fin 2096, feats (poolJ x0) (poolW x1) (poolW x2) (ix2 p k) * x3 (ix2 q k)) + x4 (ix1 q)) (Ideal.ofBits .f32 0x00000000#32)
  refine congrArg₂ max (congrArg₂ (· + ·) (Finset.sum_congr rfl fun k _ => ?_) ?_) rfl
  · rw [val_main_v31_apply]
    refine congrArg₂ (· * ·) (congrArg _ (funext fun a => Fin.ext ?_)) (congrArg x3 (funext fun a => Fin.ext ?_))
    · match a with
      | ⟨0, _⟩ => rfl
      | ⟨1, _⟩ => rfl
    · match a with
      | ⟨0, _⟩ => rfl
      | ⟨1, _⟩ => rfl
  · refine congrArg x4 (funext fun a => Fin.ext ?_)
    match a with
    | ⟨0, _⟩ => rfl

end Cert.ReferenceIdeal.RefValue

end
-- ==== Proof.lean ====
/-
  The claim. Both programs compute, from three sequence tensors x (each [1024,128,D]), a weight and a bias:
  the sums of each x over the sequence axis; for each, the number n of batch rows whose total is not zero and the
  masked mean (row sums) / max(n, 1); the three masked means joined along the feature axis; and
  max(features · weightᵀ + bias, 0). The kernel's program pools on a grid of 64 points, forms the masked means on the
  host from the pooled arrays, and applies the dense layer on a grid of 8 points with the weight transposed beforehand;
  the reference does everything in whole-array operations, taking each total over both trailing axes at once. At the
  exact reals the two agree entry by entry: the only laws used are that sums may be regrouped and reordered, which hold
  on the extended reals without any finiteness, so the precondition is never opened. The word-level kernel and its
  idealization are the same text, so the idealization has nothing to justify; each of the three programs runs to the end
  and leaves its five argument arrays as launched.
-/
import proofs.«161936_j50259707298335_1_alg».proof.Defs
import proofs.«161936_j50259707298335_1_alg».proof.Proof.Gen.Kernel
import proofs.«161936_j50259707298335_1_alg».proof.Proof.Gen.KernelIdeal
import proofs.«161936_j50259707298335_1_alg».proof.Proof.Gen.ReferenceIdeal
import proofs.«161936_j50259707298335_1_alg».proof.Proof.Gen.Pre_finite_inputs
import proofs.«161936_j50259707298335_1_alg».proof.Proof.FrameK.Run
import proofs.«161936_j50259707298335_1_alg».proof.Proof.FrameKI.Run
import proofs.«161936_j50259707298335_1_alg».proof.Proof.ValueHost
import proofs.«161936_j50259707298335_1_alg».proof.Proof.RefBridge

noncomputable section

namespace Cert.Proof

open Idealize.ShloMosaic Idealize.ShloMosaic.TcCoe Idealize.SL.Sem
open Cert.KernelIdeal.Val (poolJ poolW feats G)

/-- The word-level kernel runs to the end and leaves its arguments as launched. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both idealized programs end with the dense layer of the joined masked
    means of the row sums, the weight and the bias in their result arrays. -/
theorem algebraic : Cert.algebraic_KernelIdeal_ReferenceIdeal := by
  intro m ρ m' ρ' _ hagree
  refine ⟨fun c => G (feats (poolJ (m ((c.tc : Thread Cert.KernelIdeal.nD Cert.KernelIdeal.τ).loc Cert.KernelIdeal.main_arg0)))
      (poolW (m ((c.tc : Thread Cert.KernelIdeal.nD Cert.KernelIdeal.τ).loc Cert.KernelIdeal.main_arg1)))
      (poolW (m ((c.tc : Thread Cert.KernelIdeal.nD Cert.KernelIdeal.τ).loc Cert.KernelIdeal.main_arg2))))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Val.result_value m ρ c), (h c).2⟩)
      (Cert.KernelIdeal.Fr.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v36_eq _ _ _ _ _).trans (Cert.ReferenceIdeal.RefValue.ref_is_G _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
